-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x3 : Shape := ⟨2, ![500000, 3]⟩
abbrev S500000x1 : Shape := ⟨2, ![500000, 1]⟩
abbrev S500000x4 : Shape := ⟨2, ![500000, 4]⟩
abbrev S385x128 : Shape := ⟨2, ![385, 128]⟩
abbrev S128 : Shape := ⟨1, ![128]⟩
abbrev S513x128 : Shape := ⟨2, ![513, 128]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S385x128 : S_.BroadcastsInDim S385x128 (![] : Fin 0 → Fin S385x128.rank)
  reducesTo_S385x128_S_d0_1 : S385x128.ReducesTo [0, 1] S_
  bcast_S_S128 : S_.BroadcastsInDim S128 (![] : Fin 0 → Fin S128.rank)
  reducesTo_S128_S_d0 : S128.ReducesTo [0] S_
  bcast_S_S513x128 : S_.BroadcastsInDim S513x128 (![] : Fin 0 → Fin S513x128.rank)
  reducesTo_S513x128_S_d0_1 : S513x128.ReducesTo [0, 1] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg9 : FVec F S384x128 .f32) (main_arg10 : FVec F S128 .f32) (main_v33 : IVec S_ 1) : IVec S_ 1 :=
  let main_v34 : FVec F S384x128 .f32 := Host.absf main_arg9
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S513x128 .f32) (main_arg8 : FVec F S128 .f32) (main_arg9 : FVec F S384x128 .f32) (main_arg10 : FVec F S128 .f32) (main_v13 : IVec S_ 1) (main_v16 : IVec S385x128 1) : IVec S_ 1 :=
  let main_c_5 : IVec S_ 1 := constantI S_ 1 1#1
  let main_v17 : IVec S_ 1 := (fun x v => Host.reduce IntOp.andi x v reducesTo_S385x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S513x128 .f32 := Host.absf main_arg7
  let main_cst_8 : FVec F S_ .f32 := constant S_ .f32 0x7F800000#32
  let main_v25 : FVec F S513x128 .f32 := broadcastInDim S513x128 ![] bcast_S_S513x128 main_cst_8
  let main_v26 : IVec S513x128 1 := cmpf .olt main_v24 main_v25
  let main_c_9 : IVec S_ 1 := constantI S_ 1 1#1
  let main_v27 : IVec S_ 1 := (fun x v => Host.reduce IntOp.andi x v reducesTo_S513x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S500000x3 32) (main_arg2 : FVec F S500000x1 .f32) (main_arg3 : IVec S500000x4 32) (main_arg4 : FVec F S500000x1 .f32) (main_arg5 : FVec F S385x128 .f32) (main_arg6 : FVec F S128 .f32) (main_arg7 : FVec F S513x128 .f32) (main_arg8 : FVec F S128 .f32) (main_arg9 : FVec F S384x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x1 .f32 := Host.absf main_arg2
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S500000x1 .f32 := Host.absf main_arg4
  let main_cst_2 : FVec F S_ .f32 := constant S_ .f32 0x7F800000#32
  let main_v10 : FVec F S500000x1 .f32 := broadcastInDim S500000x1 ![] bcast_S_S500000x1 main_cst_2
  let main_v11 : IVec S500000x1 1 := cmpf .olt main_v9 main_v10
  let main_c_3 : IVec S_ 1 := constantI S_ 1 1#1
  let main_v12 : IVec S_ 1 := (fun x v => Host.reduce IntOp.andi x v reducesTo_S500000x1_S_d0_1 h_S_) main_v11 main_c_3
  let main_v13 : IVec S_ 1 := andi main_v8 main_v12
  let main_v14 : FVec F S385x128 .f32 := Host.absf main_arg5
  let main_cst_4 : FVec F S_ .f32 := constant S_ .f32 0x7F800000#32
  let main_v15 : FVec F S385x128 .f32 := broadcastInDim S385x128 ![] bcast_S_S385x128 main_cst_4
  let main_v16 : IVec S385x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S500000x3 : Shape := ⟨2, ![500000, 3]⟩
abbrev S500000x1 : Shape := ⟨2, ![500000, 1]⟩
abbrev S500000x4 : Shape := ⟨2, ![500000, 4]⟩
abbrev S385x128 : Shape := ⟨2, ![385, 128]⟩
abbrev S128 : Shape := ⟨1, ![128]⟩
abbrev S513x128 : Shape := ⟨2, ![513, 128]⟩
abbrev S384x128 : Shape := ⟨2, ![384, 128]⟩
abbrev S500000 : Shape := ⟨1, ![500000]⟩
abbrev S_ : Shape := ⟨0, ![]⟩
abbrev S500000x128 : Shape := ⟨2, ![500000, 128]⟩
abbrev S128x128 : Shape := ⟨2, ![128, 128]⟩
abbrev S1x128 : Shape := ⟨2, ![1, 128]⟩
abbrev S4000x128 : Shape := ⟨2, ![4000, 128]⟩
abbrev S4000x1 : Shape := ⟨2, ![4000, 1]⟩
abbrev S2000x128 : Shape := ⟨2, ![2000, 128]⟩

abbrev nBuf : Space → Nat
  | .hbm => 119
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S500000x3, .i32⟩
  | .hbm, ⟨2, _⟩ => ⟨S500000x1, .f32⟩
  | .hbm, ⟨3, _⟩ => ⟨S500000x4, .i32⟩
  | .hbm, ⟨4, _⟩ => ⟨S500000x1, .f32⟩
  | .hbm, ⟨5, _⟩ => ⟨S385x128, .f32⟩
  | .hbm, ⟨6, _⟩ => ⟨S128, .f32⟩
  | .hbm, ⟨7, _⟩ => ⟨S513x128, .f32⟩
  | .hbm, ⟨8, _⟩ => ⟨S128, .f32⟩
  | .hbm, ⟨9, _⟩ => ⟨S384x128, .f32⟩
  | .hbm, ⟨10, _⟩ => ⟨S128, .f32⟩
  | .hbm, ⟨11, _⟩ => ⟨S100000x128, .bf16⟩
  | .hbm, ⟨12, _⟩ => ⟨S500000x1, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .bf16⟩
  | .hbm, ⟨23, _⟩ => ⟨S500000x1, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .bf16⟩
  | .hbm, ⟨34, _⟩ => ⟨S500000x1, .i32⟩
  | .hbm, ⟨35, _⟩ => ⟨S500000, .i32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .bf16⟩
  | .hbm, ⟨45, _⟩ => ⟨S500000x1, .i32⟩
  | .hbm, ⟨46, _⟩ => ⟨S500000, .i32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x128, .bf16⟩
  | .hbm, ⟨56, _⟩ => ⟨S500000x1, .i32⟩
  | .hbm, ⟨57, _⟩ => ⟨S500000, .i32⟩
  | .hbm, ⟨58, _⟩ => ⟨S_, .i32⟩
  | .hbm, ⟨59, _⟩ => ⟨S500000, .i32⟩
  | .hbm, ⟨60, _⟩ => ⟨S500000, .i1⟩
  | .hbm, ⟨61, _⟩ => ⟨S_, .i32⟩
  | .hbm, ⟨62, _⟩ => ⟨S500000, .i32⟩
  | .hbm, ⟨63, _⟩ => ⟨S500000, .i32⟩
  | .hbm, ⟨64, _⟩ => ⟨S500000, .i32⟩
  | .hbm, ⟨65, _⟩ => ⟨S500000x1, .i32⟩
  | .hbm, ⟨66, _⟩ => ⟨S500000x128, .bf16⟩
  | .hbm, ⟨67, _⟩ => ⟨S500000x1, .i32⟩
  | .hbm, ⟨68, _⟩ => ⟨S500000, .i32⟩
  | .hbm, ⟨69, _⟩ => ⟨S_, .i32⟩
  | .hbm, ⟨70, _⟩ => ⟨S500000, .i32⟩
  | .hbm, ⟨71, _⟩ => ⟨S500000, .i1⟩
  | .hbm, ⟨72, _⟩ => ⟨S_, .i32⟩
  | .hbm, ⟨73, _⟩ => ⟨S500000, .i32⟩
  | .hbm, ⟨74, _⟩ => ⟨S500000, .i32⟩
  | .hbm, ⟨75, _⟩ => ⟨S500000, .i32⟩
  | .hbm, ⟨76, _⟩ => ⟨S500000x1, .i32⟩
  | .hbm, ⟨77, _⟩ => ⟨S500000x128, .bf16⟩
  | .hbm, ⟨78, _⟩ => ⟨S500000x1, .i32⟩
  | .hbm, ⟨79, _⟩ => ⟨S500000, .i32⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x128, .bf16⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S1x128, .f32⟩
  | .hbm, ⟨93, _⟩ => ⟨S128x128, .f32⟩
  | .hbm, ⟨94, _⟩ => ⟨S128x128, .f32⟩
  | .hbm, ⟨95, _⟩ => ⟨S128x128, .f32⟩
  | .hbm, ⟨96, _⟩ => ⟨S128x128, .f32⟩
  | .hbm, ⟨97, _⟩ => ⟨S1x128, .f32⟩
  | .hbm, ⟨98, _⟩ => ⟨S128x128, .f32⟩
  | .hbm, ⟨99, _⟩ => ⟨S128x128, .f32⟩
  | .hbm, ⟨100, _⟩ => ⟨S128x128, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S500000x128, .f32⟩
  | .hbm, ⟨105, _⟩ => ⟨S500000x128, .f32⟩
  | .hbm, ⟨106, _⟩ => ⟨S500000x1, .i32⟩
  | .hbm, ⟨107, _⟩ => ⟨S500000, .i32⟩
  | .hbm, ⟨108, _⟩ => ⟨S_, .f32⟩
  | .hbm, ⟨109, _⟩ => ⟨S100000x128, .f32⟩
  | .hbm, ⟨110, _⟩ => ⟨S500000x1, .i32⟩
  | .hbm, ⟨111, _⟩ => ⟨S100000x128, .f32⟩
  | .hbm, ⟨112, _⟩ => ⟨S500000x1, .i32⟩
  | .hbm, ⟨113, _⟩ => ⟨S500000, .i32⟩
  | .hbm, ⟨114, _⟩ => ⟨S_, .f32⟩
  | .hbm, ⟨115, _⟩ => ⟨S100000x128, .f32⟩
  | .hbm, ⟨116, _⟩ => ⟨S500000x1, .i32⟩
  | .hbm, ⟨117, _⟩ => ⟨S100000x128, .f32⟩
  | .hbm, ⟨118, _⟩ => ⟨S100000x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .bf16⟩
  | .local _ .vmem, ⟨6, _⟩ => ⟨S4000x1, .f32⟩
  | .local _ .vmem, ⟨7, _⟩ => ⟨S4000x1, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S4000x128, .bf16⟩
  | .local _ .vmem, ⟨19, _⟩ => ⟨S4000x128, .bf16⟩
  | .local _ .vmem, ⟨20, _⟩ => ⟨S4000x128, .bf16⟩
  | .local _ .vmem, ⟨21, _⟩ => ⟨S4000x128, .bf16⟩
  | .local _ .vmem, ⟨22, _⟩ => ⟨S4000x128, .bf16⟩
  | .local _ .vmem, ⟨23, _⟩ => ⟨S4000x1, .f32⟩
  | .local _ .vmem, ⟨24, _⟩ => ⟨S4000x1, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S4000x128, .f32⟩
  | .local _ .vmem, ⟨32, _⟩ => ⟨S4000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S128x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_13 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg10_0 : Ref sig .tc := ⟨.vmem, 30, rfl⟩
abbrev cc1_stg11_0 : Ref sig .tc := ⟨.vmem, 31, rfl⟩
abbrev cc1_stg11_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg7_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem9_0 : DmaSem sig := 29
abbrev cc1_sem10_0 : DmaSem sig := 30
abbrev cc1_sem11_0 : DmaSem sig := 31
abbrev cc1_sem11_1 : DmaSem sig := 32
abbrev cc2_sem0_0 : DmaSem sig := 33
abbrev cc2_sem0_1 : DmaSem sig := 34
abbrev cc2_sem1_0 : DmaSem sig := 35
abbrev cc2_sem1_1 : DmaSem sig := 36
abbrev cc2_sem2_0 : DmaSem sig := 37
abbrev cc2_sem2_1 : DmaSem sig := 38
abbrev cc2_sem3_0 : DmaSem sig := 39
abbrev cc2_sem4_0 : DmaSem sig := 40
abbrev cc2_sem5_0 : DmaSem sig := 41
abbrev cc2_sem6_0 : DmaSem sig := 42
abbrev cc2_sem7_0 : DmaSem sig := 43
abbrev cc2_sem7_1 : DmaSem sig := 44

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bitsLt_bf16_f32 : FTy.bits .bf16 < FTy.bits .f32
  slices_S500000x3_S500000x1_0_0 : S500000x3.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x3_S500000x1_0_1 : S500000x3.Slices ![0, 1] S500000x1
  slices_S500000x3_S500000x1_0_2 : S500000x3.Slices ![0, 2] S500000x1
  slices_S500000x4_S500000x1_0_0 : S500000x4.Slices ![0, 0] S500000x1
  slices_S500000x4_S500000x1_0_1 : S500000x4.Slices ![0, 1] S500000x1
  slices_S500000x4_S500000x1_0_2 : S500000x4.Slices ![0, 2] S500000x1
  slices_S500000x4_S500000x1_0_3 : S500000x4.Slices ![0, 3] S500000x1
  slices_S385x128_S128x128_0_0 : S385x128.Slices ![0, 0] S128x128
  slices_S385x128_S128x128_128_0 : S385x128.Slices ![128, 0] S128x128
  slices_S385x128_S128x128_256_0 : S385x128.Slices ![256, 0] S128x128
  slices_S385x128_S1x128_384_0 : S385x128.Slices ![384, 0] S1x128
  slices_S513x128_S128x128_0_0 : S513x128.Slices ![0, 0] S128x128
  slices_S513x128_S128x128_128_0 : S513x128.Slices ![128, 0] S128x128
  slices_S513x128_S128x128_256_0 : S513x128.Slices ![256, 0] S128x128
  slices_S513x128_S128x128_384_0 : S513x128.Slices ![384, 0] S128x128
  slices_S513x128_S1x128_512_0 : S513x128.Slices ![512, 0] S1x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  gather_S100000x128_S500000x1_S500000x128_1_0_n_n_0_1_1128_wf : GatherDims.WF S100000x128 S500000x1 S500000x128 [1] [0] [] [0] [] 1 ![1, 128]
  dot_S4000x128_S128x128_S4000x128_1_0_0_1_n_n_wf : DotDims.WF S4000x128 S128x128 S4000x128 [1] [0] [0] [1] [] []
  scatter_S100000x128_S500000x1_S500000x128_1_0_0_1_wf : ScatterDims.WF S100000x128 S500000x1 S500000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S500000x128.size a
  hwx0_2 : ∀ i : grid0.Coords, EltTy.bits .bf16 = 32 ∨ (Rect.block (s := S500000x128) S4000x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S500000x1.size a
  hwx0_3 : ∀ i : grid0.Coords, EltTy.bits .f32 = 32 ∨ (Rect.block (s := S500000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S500000x128.size a
  hwx0_9 : ∀ i : grid0.Coords, EltTy.bits .f32 = 32 ∨ (Rect.block (s := S500000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S500000x128.size a
  hwx1_0 : ∀ i : grid1.Coords, EltTy.bits .bf16 = 32 ∨ (Rect.block (s := S500000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S500000x128.size a
  hwx1_1 : ∀ i : grid1.Coords, EltTy.bits .bf16 = 32 ∨ (Rect.block (s := S500000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S500000x128.size a
  hwx1_2 : ∀ i : grid1.Coords, EltTy.bits .bf16 = 32 ∨ (Rect.block (s := S500000x128) S4000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S500000x128.size a
  hwx1_3 : ∀ i : grid1.Coords, EltTy.bits .bf16 = 32 ∨ (Rect.block (s := S500000x128) S4000x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S500000x1.size a
  hwx1_4 : ∀ i : grid1.Coords, EltTy.bits .f32 = 32 ∨ (Rect.block (s := S500000x1) S4000x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S4000x128.size a ≤ S500000x128.size a
  hwx1_11 : ∀ i : grid1.Coords, EltTy.bits .f32 = 32 ∨ (Rect.block (s := S500000x128) S4000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v64) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v66) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v67) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v76) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v79) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v63) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v68) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v71) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v72) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v77) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v80) S4000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v90) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v73) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v74) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v75) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v78) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v91) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x128 : Shape := ⟨2, ![100000, 128]⟩
abbrev S500000x3 : Shape := ⟨2, ![500000, 3]⟩
abbrev S500000x1 : Shape := ⟨2, ![500000, 1]⟩
abbrev S500000x4 : Shape := ⟨2, ![500000, 4]⟩
abbrev S385x128 : Shape := ⟨2, ![385, 128]⟩
abbrev S128 : Shape := ⟨1, ![128]⟩
abbrev S513x128 : Shape := ⟨2, ![513, 128]⟩
abbrev S384x128 : Shape := ⟨2, ![384, 128]⟩
abbrev S500000 : Shape := ⟨1, ![500000]⟩
abbrev S_ : Shape := ⟨0, ![]⟩
abbrev S500000x128 : Shape := ⟨2, ![500000, 128]⟩
abbrev S500000x385 : Shape := ⟨2, ![500000, 385]⟩
abbrev S1x128 : Shape := ⟨2, ![1, 128]⟩
abbrev S500000x513 : Shape := ⟨2, ![500000, 513]⟩
abbrev S100000x384 : Shape := ⟨2, ![100000, 384]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S500000x3, .i32⟩
  | 2 => ⟨S500000x1, .f32⟩
  | 3 => ⟨S500000x4, .i32⟩
  | 4 => ⟨S500000x1, .f32⟩
  | 5 => ⟨S385x128, .f32⟩
  | 6 => ⟨S128, .f32⟩
  | 7 => ⟨S513x128, .f32⟩
  | 8 => ⟨S128, .f32⟩
  | 9 => ⟨S384x128, .f32⟩
  | 10 => ⟨S128, .f32⟩
  | 11 => ⟨S500000x1, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x128, .f32⟩
  | 22 => ⟨S500000x1, .i32⟩
  | 23 => ⟨S500000, .i32⟩
  | 24 => ⟨S_, .i32⟩
  | 25 => ⟨S500000, .i32⟩
  | 26 => ⟨S500000, .i1⟩
  | 27 => ⟨S_, .i32⟩
  | 28 => ⟨S500000, .i32⟩
  | 29 => ⟨S500000, .i32⟩
  | 30 => ⟨S500000, .i32⟩
  | 31 => ⟨S500000x1, .i32⟩
  | 32 => ⟨S500000x128, .f32⟩
  | 33 => ⟨S500000x1, .i32⟩
  | 34 => ⟨S500000, .i32⟩
  | 35 => ⟨S_, .i32⟩
  | 36 => ⟨S500000, .i32⟩
  | 37 => ⟨S500000, .i1⟩
  | 38 => ⟨S_, .i32⟩
  | 39 => ⟨S500000, .i32⟩
  | 40 => ⟨S500000, .i32⟩
  | 41 => ⟨S500000, .i32⟩
  | 42 => ⟨S500000x1, .i32⟩
  | 43 => ⟨S500000x128, .f32⟩
  | 44 => ⟨S500000x385, .f32⟩
  | 45 => ⟨S500000x128, .f32⟩
  | 46 => ⟨S1x128, .f32⟩
  | 47 => ⟨S500000x128, .f32⟩
  | 48 => ⟨S500000x128, .f32⟩
  | 49 => ⟨S500000x128, .f32⟩
  | 50 => ⟨S500000x128, .f32⟩
  | 51 => ⟨S_, .f32⟩
  | 52 => ⟨S500000x128, .f32⟩
  | 53 => ⟨S500000x128, .f32⟩
  | 54 => ⟨S_, .f32⟩
  | 55 => ⟨S500000x128, .f32⟩
  | 56 => ⟨S500000x128, .f32⟩
  | 57 => ⟨S500000x128, .f32⟩
  | 58 => ⟨S500000x1, .i32⟩
  | 59 => ⟨S500000, .i32⟩
  | 60 => ⟨S_, .f32⟩
  | 61 => ⟨S100000x128, .f32⟩
  | 62 => ⟨S500000x1, .i32⟩
  | 63 => ⟨S100000x128, .f32⟩
  | 64 => ⟨S500000x1, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x128, .f32⟩
  | 75 => ⟨S500000x1, .i32⟩
  | 76 => ⟨S500000, .i32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S500000x128, .f32⟩
  | 86 => ⟨S500000x1, .i32⟩
  | 87 => ⟨S500000, .i32⟩
  | 88 => ⟨S_, .i32⟩
  | 89 => ⟨S500000, .i32⟩
  | 90 => ⟨S500000, .i1⟩
  | 91 => ⟨S_, .i32⟩
  | 92 => ⟨S500000, .i32⟩
  | 93 => ⟨S500000, .i32⟩
  | 94 => ⟨S500000, .i32⟩
  | 95 => ⟨S500000x1, .i32⟩
  | 96 => ⟨S500000x128, .f32⟩
  | 97 => ⟨S500000x1, .i32⟩
  | 98 => ⟨S500000, .i32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x128, .f32⟩
  | 108 => ⟨S500000x513, .f32⟩
  | 109 => ⟨S500000x128, .f32⟩
  | 110 => ⟨S1x128, .f32⟩
  | 111 => ⟨S500000x128, .f32⟩
  | 112 => ⟨S500000x128, .f32⟩
  | 113 => ⟨S500000x128, .f32⟩
  | 114 => ⟨S500000x128, .f32⟩
  | 115 => ⟨S_, .f32⟩
  | 116 => ⟨S500000x128, .f32⟩
  | 117 => ⟨S500000x128, .f32⟩
  | 118 => ⟨S_, .f32⟩
  | 119 => ⟨S500000x128, .f32⟩
  | 120 => ⟨S500000x128, .f32⟩
  | 121 => ⟨S500000x128, .f32⟩
  | 122 => ⟨S500000x1, .i32⟩
  | 123 => ⟨S500000, .i32⟩
  | 124 => ⟨S_, .f32⟩
  | 125 => ⟨S100000x128, .f32⟩
  | 126 => ⟨S500000x1, .i32⟩
  | 127 => ⟨S100000x128, .f32⟩
  | _ => ⟨S100000x128, .f32⟩

abbrev hbmTy0_1 (i : Nat) : BufTy := match i % 128 with
  | 0 => ⟨S100000x384, .f32⟩
  | 1 => ⟨S100000x128, .f32⟩
  | 2 => ⟨S100000x128, .f32⟩
  | 3 => ⟨S1x128, .f32⟩
  | 4 => ⟨S100000x128, .f32⟩
  | 5 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_5 : Ref sig .tc := ⟨.hbm, 66, rfl⟩
abbrev main_v40 : Ref sig .tc := ⟨.hbm, 67, rfl⟩
abbrev main_v41 : Ref sig .tc := ⟨.hbm, 68, rfl⟩
abbrev main_c_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_7 : Ref sig .tc := ⟨.hbm, 77, rfl⟩
abbrev main_v49 : Ref sig .tc := ⟨.hbm, 78, rfl⟩
abbrev main_v50 : Ref sig .tc := ⟨.hbm, 79, rfl⟩
abbrev main_c_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_9 : Ref sig .tc := ⟨.hbm, 88, rfl⟩
abbrev main_v58 : Ref sig .tc := ⟨.hbm, 89, rfl⟩
abbrev main_v59 : Ref sig .tc := ⟨.hbm, 90, rfl⟩
abbrev main_c_10 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_11 : Ref sig .tc := ⟨.hbm, 99, rfl⟩
abbrev main_v67 : Ref sig .tc := ⟨.hbm, 100, rfl⟩
abbrev main_v68 : Ref sig .tc := ⟨.hbm, 101, rfl⟩
abbrev main_c_12 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_13 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩

abbrev nD : Nat := 1
abbrev τ : Topo := Topo.v7x

variable {F : FTy → Type} [FloatOps F]

class Facts₀ : Prop where
  slices_S500000x3_S500000x1_0_0 : S500000x3.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x3_S500000x1_0_1 : S500000x3.Slices ![0, 1] S500000x1
  slices_S500000x3_S500000x1_0_2 : S500000x3.Slices ![0, 2] S500000x1
  concatenates_S500000x128_S500000x128_S500000x128_S500000x1_S500000x385_d1 : Shape.Concatenates [S500000x128, S500000x128, S500000x128, S500000x1] S500000x385 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  slices_S500000x4_S500000x1_0_0 : S500000x4.Slices ![0, 0] S500000x1
  slices_S500000x4_S500000x1_0_1 : S500000x4.Slices ![0, 1] S500000x1
  slices_S500000x4_S500000x1_0_2 : S500000x4.Slices ![0, 2] S500000x1
  slices_S500000x4_S500000x1_0_3 : S500000x4.Slices ![0, 3] S500000x1
  concatenates_S500000x128_S500000x128_S500000x128_S500000x128_S500000x1_S500000x513_d1 : Shape.Concatenates [S500000x128, S500000x128, S500000x128, S500000x128, S500000x1] S500000x513 1
  concatenates_S100000x128_S100000x128_S100000x128_S100000x384_d1 : Shape.Concatenates [S100000x128, S100000x128, S100000x128] S100000x384 1
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x385_S385x128_S500000x128_1_0_0_1_n_n_wf : DotDims.WF S500000x385 S385x128 S500000x128 [1] [0] [0] [1] [] []
  scatter_S100000x128_S500000x1_S500000x128_1_0_0_1_wf : ScatterDims.WF S100000x128 S500000x1 S500000x128 [1] [0] [0] 1
  dot_S500000x513_S513x128_S500000x128_1_0_0_1_n_n_wf : DotDims.WF S500000x513 S513x128 S500000x128 [1] [0] [0] [1] [] []
  dot_S100000x384_S384x128_S100000x128_1_0_0_1_n_n_wf : DotDims.WF S100000x384 S384x128 S100000x128 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x385_S385x128_S500000x128_1_0_0_1_n_n : DotDims S500000x385 S385x128 S500000x128 where
  lhsContracting := [1]
  rhsContracting := [0]
  lhsNonContracting := [0]
  rhsNonContracting := [1]
  lhsBatch := []
  rhsBatch := []
  wf := dot_S500000x385_S385x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S500000x513_S513x128_S500000x128_1_0_0_1_n_n : DotDims S500000x513 S513x128 S500000x128 where
  lhsContracting := [1]
  rhsContracting := [0]
  lhsNonContracting := [0]
  rhsNonContracting := [1]
  lhsBatch := []
  rhsBatch := []
  wf := dot_S500000x513_S513x128_S500000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.LibSumBlocks.lean ====
/-
  A finite sum over consecutive indices cut at a point, and cut into equal blocks with one index left over:
  the sum over `a + b` indices is the sum over the first `a` plus the sum over the last `b`
  (`sum_fin_add`); a sum over `B + B + B + 1` indices (`sum_blocks3_last`), over `B + B + B + B + 1` indices
  (`sum_blocks4_last`) and over `B + B + B` indices (`sum_blocks3`) as the block sums added in order, then the
  last index's term. In any additive commutative monoid, so on the extended reals with no finiteness asked.
-/
import Mathlib.Algebra.BigOperators.Fin

namespace SumBlocks

open Finset

variable {M : Type*} [AddCommMonoid M]

/-- The sum over `a + b` consecutive indices is the sum over the first `a` plus the sum over the last `b`. -/
theorem sum_fin_add (a b n : ℕ) (h : a + b = n) (f : Fin n → M) :
    ∑ k, f k = ∑ k : Fin a, f ⟨k.val, by omega⟩ + ∑ k : Fin b, f ⟨a + k.val, by omega⟩ := by
  subst h
  rw [Fin.sum_univ_add]
  rfl

/-- Three blocks of `B` indices and one last index. -/
theorem sum_blocks3_last (B n : ℕ) (h : B + B + B + 1 = n) (f : Fin n → M) :
    ∑ k, f k = ((∑ k : Fin B, f ⟨k.val, by omega⟩ + ∑ k : Fin B, f ⟨B + k.val, by omega⟩)
        + ∑ k : Fin B, f ⟨B + B + k.val, by omega⟩) + f ⟨B + B + B, by omega⟩ := by
  rw [sum_fin_add (B + B + B) 1 n h f, sum_fin_add (B + B) B (B + B + B) rfl, sum_fin_add B B (B + B) rfl,
    Fin.sum_univ_one]
  rfl

/-- Four blocks of `B` indices and one last index. -/
theorem sum_blocks4_last (B n : ℕ) (h : B + B + B + B + 1 = n) (f : Fin n → M) :
    ∑ k, f k = (((∑ k : Fin B, f ⟨k.val, by omega⟩ + ∑ k : Fin B, f ⟨B + k.val, by omega⟩)
        + ∑ k : Fin B, f ⟨B + B + k.val, by omega⟩) + ∑ k : Fin B, f ⟨B + B + B + k.val, by omega⟩)
        + f ⟨B + B + B + B, by omega⟩ := by
  rw [sum_fin_add (B + B + B + B) 1 n h f, sum_fin_add (B + B + B) B (B + B + B + B) rfl,
    sum_fin_add (B + B) B (B + B + B) rfl, sum_fin_add B B (B + B) rfl, Fin.sum_univ_one]
  rfl

/-- Three blocks of `B` indices. -/
theorem sum_blocks3 (B n : ℕ) (h : B + B + B = n) (f : Fin n → M) :
    ∑ k, f k = (∑ k : Fin B, f ⟨k.val, by omega⟩ + ∑ k : Fin B, f ⟨B + k.val, by omega⟩)
        + ∑ k : Fin B, f ⟨B + B + k.val, by omega⟩ := by
  rw [sum_fin_add (B + B) B n h f, sum_fin_add B B (B + B) rfl]

end SumBlocks
-- ==== Proof.Spec.lean ====
/-
  One entry of each stage of the layer, as a function of the rows and columns it reads, on the extended reals:
  an angle message and a dihedral message (a SiLU of a sum of row-times-column products, a scalar feature times its
  weight row's entry, and a bias entry), and the residual node update. Each is given in the arrangement the kernel
  computes — one product per 128-wide block of the weight matrix, added in order — and is shown equal to the
  arrangement of the reference — ONE product over the concatenated row, 385, 513 or 384 wide: a finite sum cut into
  consecutive blocks, and for the update a re-bracketing of additions. Both hold on all extended reals (addition is
  commutative and associative there), so no finiteness is used.
-/
import Idealize.ShloMosaic.PureOps.Ideal
import proofs.«164372_j55482387530475_2_alg».proof.Proof.LibSumBlocks

noncomputable section

namespace Cert.Layer

open Idealize.ShloMosaic

/-- SiLU: `y · σ(y)` with `σ(y) = 1 / (1 + e^(-y))`. -/
def silu (y : EReal) : EReal := y * Ideal.logistic y

/-- The spelling with the quotient written out is the same function. -/
theorem silu_eq (y : EReal) : y * Ideal.div 1 (1 + Ideal.exp (-y)) = silu y := rfl

/-- A row times a column, both 128 long. -/
def dot (x w : Fin 128 → EReal) : EReal := ∑ k, x k * w k

/-- An angle message's entry: three gathered rows against three weight blocks, the scalar feature against the last
    weight row, the bias, then SiLU. -/
def angle (g0 g1 g2 : Fin 128 → EReal) (v : EReal) (w0 w1 w2 : Fin 128 → EReal) (ws b : EReal) : EReal :=
  silu ((((dot g0 w0 + dot g1 w1) + dot g2 w2) + v * ws) + b)

/-- A dihedral message's entry: the same with four gathered rows. -/
def dihedral (g0 g1 g2 g3 : Fin 128 → EReal) (v : EReal) (w0 w1 w2 w3 : Fin 128 → EReal) (ws b : EReal) : EReal :=
  silu (((((dot g0 w0 + dot g1 w1) + dot g2 w2) + dot g3 w3) + v * ws) + b)

/-- The updated node entry: the node's own entry plus its row, its angle aggregate's row and its dihedral
    aggregate's row against the three weight blocks, plus the bias. -/
def update (h : EReal) (x0 x1 x2 w0 w1 w2 : Fin 128 → EReal) (b : EReal) : EReal :=
  h + (((dot x0 w0 + dot x1 w1) + dot x2 w2) + b)

/-- One product over the 385-wide concatenated row is the angle message's three block products and last term. -/
theorem angle_of_concat (x w : Fin 385 → EReal) (b : EReal) :
    silu ((∑ k, x k * w k) + b)
      = angle (fun k => x ⟨k.val, by omega⟩) (fun k => x ⟨128 + k.val, by omega⟩) (fun k => x ⟨128 + 128 + k.val, by omega⟩)
          (x ⟨128 + 128 + 128, by omega⟩)
          (fun k => w ⟨k.val, by omega⟩) (fun k => w ⟨128 + k.val, by omega⟩) (fun k => w ⟨128 + 128 + k.val, by omega⟩)
          (w ⟨128 + 128 + 128, by omega⟩) b := by
  unfold angle dot
  rw [SumBlocks.sum_blocks3_last 128 385 rfl]

/-- One product over the 513-wide concatenated row is the dihedral message's four block products and last term. -/
theorem dihedral_of_concat (x w : Fin 513 → EReal) (b : EReal) :
    silu ((∑ k, x k * w k) + b)
      = dihedral (fun k => x ⟨k.val, by omega⟩) (fun k => x ⟨128 + k.val, by omega⟩) (fun k => x ⟨128 + 128 + k.val, by omega⟩)
          (fun k => x ⟨128 + 128 + 128 + k.val, by omega⟩) (x ⟨128 + 128 + 128 + 128, by omega⟩)
          (fun k => w ⟨k.val, by omega⟩) (fun k => w ⟨128 + k.val, by omega⟩) (fun k => w ⟨128 + 128 + k.val, by omega⟩)
          (fun k => w ⟨128 + 128 + 128 + k.val, by omega⟩) (w ⟨128 + 128 + 128 + 128, by omega⟩) b := by
  unfold dihedral dot
  rw [SumBlocks.sum_blocks4_last 128 513 rfl]

/-- The node's entry plus one product over the 384-wide concatenated row, plus the bias, is the update. -/
theorem update_of_concat (h : EReal) (x w : Fin 384 → EReal) (b : EReal) :
    (h + ∑ k, x k * w k) + b
      = update h (fun k => x ⟨k.val, by omega⟩) (fun k => x ⟨128 + k.val, by omega⟩) (fun k => x ⟨128 + 128 + k.val, by omega⟩)
          (fun k => w ⟨k.val, by omega⟩) (fun k => w ⟨128 + k.val, by omega⟩) (fun k => w ⟨128 + 128 + k.val, by omega⟩) b := by
  unfold update dot
  rw [SumBlocks.sum_blocks3 128 384 rfl, add_assoc]

end Cert.Layer

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Pay.lean ====
/-
  What each kernel body computes, read at one entry `(p, q)` of its block, at the ideal values: the angle kernel's
  stored value is the angle message of row `p` of its three row blocks, entry `p` of its feature column, column `q`
  of its three weight blocks and entry `q` of its weight row and bias row; the dihedral kernel's likewise with four;
  the node kernel's the update of row `p` of its three row blocks. A change of float format is the identity here, a
  product into a zero accumulator is the row-times-column sum, a broadcast column reads its row's entry and a
  broadcast row its column's.
-/
import proofs.«164372_j55482387530475_2_alg».proof.Proof.Gen.KernelIdeal.Skeleton
import proofs.«164372_j55482387530475_2_alg».proof.Proof.Spec
import proofs.«164372_j55482387530475_2_alg».proof.Proof.LibMatmulIx
import proofs.«164372_j55482387530475_2_alg».proof.Proof.LibLayout
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx Cert.Layer

/-! ## The two products' dimension numbers: rows of the left operand against columns of the right -/

abbrev dotE := dot_S4000x128_S128x128_S4000x128_1_0_0_1_n_n
abbrev dotN := dot_S2000x128_S128x128_S2000x128_1_0_0_1_n_n

theorem dotE_l0 (i : S4000x128.Idx) (q : dotE.contr.Idx) : (dotE.lhsIdx i q 0).val = (i 0).val := by
  unfold DotDims.lhsIdx
  rw [dif_neg (show ¬(0 : Fin S4000x128.rank) ∈ dotE.lhsBatch by decide), dif_pos (show (0 : Fin S4000x128.rank) ∈ dotE.lhsNonContracting by decide)]
  rfl
theorem dotE_l1 (i : S4000x128.Idx) (q : dotE.contr.Idx) : (dotE.lhsIdx i q 1).val = (q ⟨0, by decide⟩).val :=
  dotE.lhsIdx_val_of_single rfl i q
theorem dotE_r0 (i : S4000x128.Idx) (q : dotE.contr.Idx) : (dotE.rhsIdx i q 0).val = (q ⟨0, by decide⟩).val :=
  dotE.rhsIdx_val_of_single rfl i q
theorem dotE_r1 (i : S4000x128.Idx) (q : dotE.contr.Idx) : (dotE.rhsIdx i q 1).val = (i 1).val := by
  unfold DotDims.rhsIdx
  rw [dif_neg (show ¬(1 : Fin S128x128.rank) ∈ dotE.rhsBatch by decide), dif_pos (show (1 : Fin S128x128.rank) ∈ dotE.rhsNonContracting by decide)]
  rfl

theorem dotN_l0 (i : S2000x128.Idx) (q : dotN.contr.Idx) : (dotN.lhsIdx i q 0).val = (i 0).val := by
  unfold DotDims.lhsIdx
  rw [dif_neg (show ¬(0 : Fin S2000x128.rank) ∈ dotN.lhsBatch by decide), dif_pos (show (0 : Fin S2000x128.rank) ∈ dotN.lhsNonContracting by decide)]
  rfl
theorem dotN_l1 (i : S2000x128.Idx) (q : dotN.contr.Idx) : (dotN.lhsIdx i q 1).val = (q ⟨0, by decide⟩).val :=
  dotN.lhsIdx_val_of_single rfl i q
theorem dotN_r0 (i : S2000x128.Idx) (q : dotN.contr.Idx) : (dotN.rhsIdx i q 0).val = (q ⟨0, by decide⟩).val :=
  dotN.rhsIdx_val_of_single rfl i q
theorem dotN_r1 (i : S2000x128.Idx) (q : dotN.contr.Idx) : (dotN.rhsIdx i q 1).val = (i 1).val := by
  unfold DotDims.rhsIdx
  rw [dif_neg (show ¬(1 : Fin S128x128.rank) ∈ dotN.rhsBatch by decide), dif_pos (show (1 : Fin S128x128.rank) ∈ dotN.rhsNonContracting by decide)]
  rfl

/-- A 4000-row block times a weight block, into zeros, at `(p, q)`. -/
theorem mmE {φ₁ φ₂ : FTy} (x : FVec Ideal S4000x128 φ₁) (w : FVec Ideal S128x128 φ₂) (p : Fin 4000) (q : Fin 128) :
    matmul dotE none x w (constant (F := Ideal) S4000x128 .f32 0x00000000#32) (ix2 p q) = Layer.dot (fun k => x (ix2 p k)) (fun k => w (ix2 k q)) :=
  MatmulIx.matmul_zero_ix2 dotE rfl rfl dotE_l0 dotE_l1 dotE_r0 dotE_r1 none x w p q

/-- A 2000-row block times a weight block, into zeros, at `(p, q)`. -/
theorem mmN {φ₁ φ₂ : FTy} (x : FVec Ideal S2000x128 φ₁) (w : FVec Ideal S128x128 φ₂) (p : Fin 2000) (q : Fin 128) :
    matmul dotN none x w (constant (F := Ideal) S2000x128 .f32 0x00000000#32) (ix2 p q) = Layer.dot (fun k => x (ix2 p k)) (fun k => w (ix2 k q)) :=
  MatmulIx.matmul_zero_ix2 dotN rfl rfl dotN_l0 dotN_l1 dotN_r0 dotN_r1 none x w p q

/-! ## The three bodies at an entry -/

/-- The angle kernel's stored value at `(p, q)`. -/
theorem pay_angle (x0 x1 x2 : Vec Ideal S4000x128 .bf16) (w0 w1 w2 : Vec Ideal S128x128 .f32) (v : Vec Ideal S4000x1 .f32)
    (ws b : Vec Ideal S1x128 .f32) (p : Fin 4000) (q : Fin 128) :
    k0_pay1 x0 x1 x2 w0 w1 w2 v ws b (ix2 p q)
      = angle (fun k => x0 (ix2 p k)) (fun k => x1 (ix2 p k)) (fun k => x2 (ix2 p k)) (v (ix2 p (0 : Fin 1)))
          (fun k => w0 (ix2 k q)) (fun k => w1 (ix2 k q)) (fun k => w2 (ix2 k q)) (ws (ix2 (0 : Fin 1) q)) (b (ix2 (0 : Fin 1) q)) := by
  unfold k0_pay1 angle silu
  simp only [shapeCast_self]
  show (_ + _ + _ + _ * _ + _) * Ideal.logistic (_ + _ + _ + _ * _ + _) = _
  rw [mmE, mmE, mmE, Cert.Attn.Layout.broadcastTo_a1_ab_apply, broadcastTo_1b_ab_apply, broadcastTo_1b_ab_apply]
  rfl

/-- The dihedral kernel's stored value at `(p, q)`. -/
theorem pay_dihedral (x0 x1 x2 x3 : Vec Ideal S4000x128 .bf16) (w0 w1 w2 w3 : Vec Ideal S128x128 .f32) (v : Vec Ideal S4000x1 .f32)
    (ws b : Vec Ideal S1x128 .f32) (p : Fin 4000) (q : Fin 128) :
    k1_pay1 (k1_pay2 x0 x1 x2 x3 w0 w1 w2 w3 v ws) b (ix2 p q)
      = dihedral (fun k => x0 (ix2 p k)) (fun k => x1 (ix2 p k)) (fun k => x2 (ix2 p k)) (fun k => x3 (ix2 p k)) (v (ix2 p (0 : Fin 1)))
          (fun k => w0 (ix2 k q)) (fun k => w1 (ix2 k q)) (fun k => w2 (ix2 k q)) (fun k => w3 (ix2 k q))
          (ws (ix2 (0 : Fin 1) q)) (b (ix2 (0 : Fin 1) q)) := by
  unfold k1_pay1 k1_pay2 dihedral silu
  simp only [shapeCast_self]
  show (_ + _ + _ + _ + _ * _ + _) * Ideal.logistic (_ + _ + _ + _ + _ * _ + _) = _
  rw [mmE, mmE, mmE, mmE, Cert.Attn.Layout.broadcastTo_a1_ab_apply, broadcastTo_1b_ab_apply, broadcastTo_1b_ab_apply]
  rfl

/-- The node kernel's stored value at `(p, q)`. -/
theorem pay_update (x0 x1 x2 : Vec Ideal S2000x128 .f32) (w0 w1 w2 : Vec Ideal S128x128 .f32) (b : Vec Ideal S1x128 .f32)
    (p : Fin 2000) (q : Fin 128) :
    k2_pay1 x0 x1 x2 w0 w1 w2 b (ix2 p q)
      = update (x0 (ix2 p q)) (fun k => x0 (ix2 p k)) (fun k => x1 (ix2 p k)) (fun k => x2 (ix2 p k))
          (fun k => w0 (ix2 k q)) (fun k => w1 (ix2 k q)) (fun k => w2 (ix2 k q)) (b (ix2 (0 : Fin 1) q)) := by
  unfold k2_pay1 update
  simp only [shapeCast_self]
  show _ + (_ + _ + _ + _) = _
  rw [mmN, mmN, mmN, broadcastTo_1b_ab_apply]
  rfl

end Cert.KernelIdeal.Hand

end
-- ==== Proof.Arrays.lean ====
/-
  The three stages as whole arrays: every angle message, every dihedral message and every updated node entry as one
  function of the arrays the stage reads — entry `(e, j)` from row `e` of the row arrays and column `j` of the weight
  blocks (`Layer.angle`, `Layer.dihedral`, `Layer.update`).
-/
import proofs.«164372_j55482387530475_2_alg».proof.Proof.Spec
import Idealize.ShloMosaic.Lib.ValueIdx

noncomputable section

namespace Cert.Layer

open Idealize.ShloMosaic Idealize.ShloMosaic.ValueIdx

/-- An `[a, b]` array of extended reals. -/
abbrev Arr (a b : ℕ) := (⟨2, ![a, b]⟩ : Shape).Idx → EReal

/-- The angle messages of `n` edges from their gathered rows, feature column, weight blocks, weight row and bias. -/
def angleArr {n : ℕ} (g0 g1 g2 : Arr n 128) (v : Arr n 1) (w0 w1 w2 : Arr 128 128) (ws b : Arr 1 128) : Arr n 128 :=
  fun i => angle (fun k => g0 (ix2 (⟨(i 0).val, idx2_lt0 i⟩ : Fin n) k)) (fun k => g1 (ix2 (⟨(i 0).val, idx2_lt0 i⟩ : Fin n) k))
    (fun k => g2 (ix2 (⟨(i 0).val, idx2_lt0 i⟩ : Fin n) k)) (v (ix2 (⟨(i 0).val, idx2_lt0 i⟩ : Fin n) (0 : Fin 1)))
    (fun k => w0 (ix2 k (⟨(i 1).val, idx2_lt1 i⟩ : Fin 128))) (fun k => w1 (ix2 k (⟨(i 1).val, idx2_lt1 i⟩ : Fin 128)))
    (fun k => w2 (ix2 k (⟨(i 1).val, idx2_lt1 i⟩ : Fin 128))) (ws (ix2 (0 : Fin 1) (⟨(i 1).val, idx2_lt1 i⟩ : Fin 128)))
    (b (ix2 (0 : Fin 1) (⟨(i 1).val, idx2_lt1 i⟩ : Fin 128)))

theorem angleArr_ix2 {n : ℕ} (g0 g1 g2 : Arr n 128) (v : Arr n 1) (w0 w1 w2 : Arr 128 128) (ws b : Arr 1 128) (p : Fin n) (q : Fin 128) :
    angleArr g0 g1 g2 v w0 w1 w2 ws b (ix2 p q)
      = angle (fun k => g0 (ix2 p k)) (fun k => g1 (ix2 p k)) (fun k => g2 (ix2 p k)) (v (ix2 p (0 : Fin 1)))
          (fun k => w0 (ix2 k q)) (fun k => w1 (ix2 k q)) (fun k => w2 (ix2 k q)) (ws (ix2 (0 : Fin 1) q)) (b (ix2 (0 : Fin 1) q)) := rfl

/-- The dihedral messages of `n` edges. -/
def dihedralArr {n : ℕ} (g0 g1 g2 g3 : Arr n 128) (v : Arr n 1) (w0 w1 w2 w3 : Arr 128 128) (ws b : Arr 1 128) : Arr n 128 :=
  fun i => dihedral (fun k => g0 (ix2 (⟨(i 0).val, idx2_lt0 i⟩ : Fin n) k)) (fun k => g1 (ix2 (⟨(i 0).val, idx2_lt0 i⟩ : Fin n) k))
    (fun k => g2 (ix2 (⟨(i 0).val, idx2_lt0 i⟩ : Fin n) k)) (fun k => g3 (ix2 (⟨(i 0).val, idx2_lt0 i⟩ : Fin n) k))
    (v (ix2 (⟨(i 0).val, idx2_lt0 i⟩ : Fin n) (0 : Fin 1)))
    (fun k => w0 (ix2 k (⟨(i 1).val, idx2_lt1 i⟩ : Fin 128))) (fun k => w1 (ix2 k (⟨(i 1).val, idx2_lt1 i⟩ : Fin 128)))
    (fun k => w2 (ix2 k (⟨(i 1).val, idx2_lt1 i⟩ : Fin 128))) (fun k => w3 (ix2 k (⟨(i 1).val, idx2_lt1 i⟩ : Fin 128)))
    (ws (ix2 (0 : Fin 1) (⟨(i 1).val, idx2_lt1 i⟩ : Fin 128))) (b (ix2 (0 : Fin 1) (⟨(i 1).val, idx2_lt1 i⟩ : Fin 128)))

theorem dihedralArr_ix2 {n : ℕ} (g0 g1 g2 g3 : Arr n 128) (v : Arr n 1) (w0 w1 w2 w3 : Arr 128 128) (ws b : Arr 1 128) (p : Fin n) (q : Fin 128) :
    dihedralArr g0 g1 g2 g3 v w0 w1 w2 w3 ws b (ix2 p q)
      = dihedral (fun k => g0 (ix2 p k)) (fun k => g1 (ix2 p k)) (fun k => g2 (ix2 p k)) (fun k => g3 (ix2 p k)) (v (ix2 p (0 : Fin 1)))
          (fun k => w0 (ix2 k q)) (fun k => w1 (ix2 k q)) (fun k => w2 (ix2 k q)) (fun k => w3 (ix2 k q))
          (ws (ix2 (0 : Fin 1) q)) (b (ix2 (0 : Fin 1) q)) := rfl

/-- The updated entries of `n` nodes from their rows, the two aggregates' rows, the weight blocks and the bias. -/
def updateArr {n : ℕ} (h a d : Arr n 128) (w0 w1 w2 : Arr 128 128) (b : Arr 1 128) : Arr n 128 :=
  fun i => update (h i) (fun k => h (ix2 (⟨(i 0).val, idx2_lt0 i⟩ : Fin n) k)) (fun k => a (ix2 (⟨(i 0).val, idx2_lt0 i⟩ : Fin n) k))
    (fun k => d (ix2 (⟨(i 0).val, idx2_lt0 i⟩ : Fin n) k))
    (fun k => w0 (ix2 k (⟨(i 1).val, idx2_lt1 i⟩ : Fin 128))) (fun k => w1 (ix2 k (⟨(i 1).val, idx2_lt1 i⟩ : Fin 128)))
    (fun k => w2 (ix2 k (⟨(i 1).val, idx2_lt1 i⟩ : Fin 128))) (b (ix2 (0 : Fin 1) (⟨(i 1).val, idx2_lt1 i⟩ : Fin 128)))

theorem updateArr_ix2 {n : ℕ} (h a d : Arr n 128) (w0 w1 w2 : Arr 128 128) (b : Arr 1 128) (p : Fin n) (q : Fin 128) :
    updateArr h a d w0 w1 w2 b (ix2 p q)
      = update (h (ix2 p q)) (fun k => h (ix2 p k)) (fun k => a (ix2 p k)) (fun k => d (ix2 p k))
          (fun k => w0 (ix2 k q)) (fun k => w1 (ix2 k q)) (fun k => w2 (ix2 k q)) (b (ix2 (0 : Fin 1) q)) := rfl

end Cert.Layer

end
-- ==== Proof.Blocks0.lean ====
/-
  The angle kernel's result array. Grid point `t` of 125 works on rows `4000 t … 4000 t + 3999` of the three gathered
  row arrays and of the feature column, on the whole of each weight block, weight row and bias row, and writes rows
  `4000 t … 4000 t + 3999` of the result. What it writes is the angle message of each of those rows (the body read at
  an entry), so, the 125 row blocks covering the array, the array ends as the angle messages of all 500000 edges —
  for whatever contents the region is entered with.
-/
import proofs.«164372_j55482387530475_2_alg».proof.Proof.FrameKI
import proofs.«164372_j55482387530475_2_alg».proof.Proof.Pay
import proofs.«164372_j55482387530475_2_alg».proof.Proof.Arrays
import Idealize.ShloMosaic.Lib.Pipeline.Value

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem Cert.Layer
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The block index of every window at every grid point: the row windows and the result at block `t` of rows, the
    weight and bias windows at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Each input block as entries of its array -/

theorem rows0_0 (c : Dev nD) (t : Fin cfg0.N) (y : S4000x128.Idx) (i : S500000x128.Idx)
    (h0 : (i 0).val = t.val * 4000 + (y 0).val) (h1 : (i 1).val = (y 1).val) :
    (iblk0 V c 0 t : Vec Ideal S4000x128 .bf16) y = (V c main_v9 : S500000x128.Idx → EReal) i := by
  obtain ⟨e0, e1, -⟩ := idx_facts0 t
  unfold iblk0
  rw [View.read_apply]
  show V c main_v9 _ = V c main_v9 _
  refine congrArg (V c main_v9) (funext fun a => Fin.ext ?_)
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

theorem rows0_1 (c : Dev nD) (t : Fin cfg0.N) (y : S4000x128.Idx) (i : S500000x128.Idx)
    (h0 : (i 0).val = t.val * 4000 + (y 0).val) (h1 : (i 1).val = (y 1).val) :
    (iblk0 V c 1 t : Vec Ideal S4000x128 .bf16) y = (V c main_v18 : S500000x128.Idx → EReal) i := by
  obtain ⟨-, -, e0, e1, -⟩ := idx_facts0 t
  unfold iblk0
  rw [View.read_apply]
  show V c main_v18 _ = V c main_v18 _
  refine congrArg (V c main_v18) (funext fun a => Fin.ext ?_)
  match a with
  | ⟨0, _⟩ => show win0_1.index t (0 : Fin 2) * 4000 + 1 * (y 0).val = (i 0).val; rw [e0, h0]; omega
  | ⟨1, _⟩ => show win0_1.index t (1 : Fin 2) * 128 + 1 * (y 1).val = (i 1).val; rw [e1, h1]; omega

theorem rows0_2 (c : Dev nD) (t : Fin cfg0.N) (y : S4000x128.Idx) (i : S500000x128.Idx)
    (h0 : (i 0).val = t.val * 4000 + (y 0).val) (h1 : (i 1).val = (y 1).val) :
    (iblk0 V c 2 t : Vec Ideal S4000x128 .bf16) y = (V c main_v27 : S500000x128.Idx → EReal) i := by
  obtain ⟨-, -, -, -, e0, e1, -⟩ := idx_facts0 t
  unfold iblk0
  rw [View.read_apply]
  show V c main_v27 _ = V c main_v27 _
  refine congrArg (V c main_v27) (funext fun a => Fin.ext ?_)
  match a with
  | ⟨0, _⟩ => show win0_2.index t (0 : Fin 2) * 4000 + 1 * (y 0).val = (i 0).val; rw [e0, h0]; omega
  | ⟨1, _⟩ => show win0_2.index t (1 : Fin 2) * 128 + 1 * (y 1).val = (i 1).val; rw [e1, h1]; omega

theorem rows0_3 (c : Dev nD) (t : Fin cfg0.N) (y : S4000x1.Idx) (i : S500000x1.Idx)
    (h0 : (i 0).val = t.val * 4000 + (y 0).val) (h1 : (i 1).val = (y 1).val) :
    (iblk0 V c 3 t : Vec Ideal S4000x1 .f32) y = (V c main_arg2 : S500000x1.Idx → EReal) i := by
  obtain ⟨-, -, -, -, -, -, e0, e1, -⟩ := idx_facts0 t
  unfold iblk0
  rw [View.read_apply]
  show V c main_arg2 _ = V c main_arg2 _
  refine congrArg (V c main_arg2) (funext fun a => Fin.ext ?_)
  match a with
  | ⟨0, _⟩ => show win0_3.index t (0 : Fin 2) * 4000 + 1 * (y 0).val = (i 0).val; rw [e0, h0]; omega
  | ⟨1, _⟩ => show win0_3.index t (1 : Fin 2) * 1 + 1 * (y 1).val = (i 1).val; rw [e1, h1]; omega

theorem whole0_4 (c : Dev nD) (t : Fin cfg0.N) : (iblk0 V c 4 t : Vec Ideal S128x128 .f32) = (V c main_v64 : S128x128.Idx → EReal) := by
  obtain ⟨-, -, -, -, -, -, -, -, e0, e1, -⟩ := idx_facts0 t
  funext y
  unfold iblk0
  rw [View.read_apply]
  show V c main_v64 _ = V c main_v64 _
  refine congrArg (V c main_v64) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

theorem whole0_5 (c : Dev nD) (t : Fin cfg0.N) : (iblk0 V c 5 t : Vec Ideal S128x128 .f32) = (V c main_v65 : S128x128.Idx → EReal) := by
  obtain ⟨-, -, -, -, -, -, -, -, -, -, e0, e1, -⟩ := idx_facts0 t
  funext y
  unfold iblk0
  rw [View.read_apply]
  show V c main_v65 _ = V c main_v65 _
  refine congrArg (V c main_v65) (funext fun a => Fin.ext ?_)
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

theorem whole0_6 (c : Dev nD) (t : Fin cfg0.N) : (iblk0 V c 6 t : Vec Ideal S128x128 .f32) = (V c main_v66 : S128x128.Idx → EReal) := by
  obtain ⟨-, -, -, -, -, -, -, -, -, -, -, -, e0, e1, -⟩ := idx_facts0 t
  funext y
  unfold iblk0
  rw [View.read_apply]
  show V c main_v66 _ = V c main_v66 _
  refine congrArg (V c main_v66) (funext fun a => Fin.ext ?_)
  match a with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega

theorem whole0_7 (c : Dev nD) (t : Fin cfg0.N) : (iblk0 V c 7 t : Vec Ideal S1x128 .f32) = (V c main_v67 : S1x128.Idx → EReal) := by
  obtain ⟨-, -, -, -, -, -, -, -, -, -, -, -, -, -, e0, e1, -⟩ := idx_facts0 t
  funext y
  unfold iblk0
  rw [View.read_apply]
  show V c main_v67 _ = V c main_v67 _
  refine congrArg (V c main_v67) (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem whole0_8 (c : Dev nD) (t : Fin cfg0.N) : (iblk0 V c 8 t : Vec Ideal S1x128 .f32) = (V c main_v76 : S1x128.Idx → EReal) := by
  obtain ⟨-, -, -, -, -, -, -, -, -, -, -, -, -, -, -, -, e0, e1, -⟩ := idx_facts0 t
  funext y
  unfold iblk0
  rw [View.read_apply]
  show V c main_v76 _ = V c main_v76 _
  refine congrArg (V c main_v76) (funext fun a => Fin.ext ?_)
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-! ## The write-back, the cover, the array -/

/-- All angle messages, from the contents the region is entered with. -/
abbrev angleOf (c : Dev nD) : S500000x128.Idx → EReal :=
  angleArr (V c main_v9 : S500000x128.Idx → EReal) (V c main_v18 : S500000x128.Idx → EReal) (V c main_v27 : S500000x128.Idx → EReal)
    (V c main_arg2 : S500000x1.Idx → EReal) (V c main_v64 : S128x128.Idx → EReal) (V c main_v65 : S128x128.Idx → EReal)
    (V c main_v66 : S128x128.Idx → EReal) (V c main_v67 : S1x128.Idx → EReal) (V c main_v76 : S1x128.Idx → EReal)

/-- The body's value at entry `(p, q)` of point `t`'s block is the angle message of edge `4000 t + p`. -/
theorem body0_at (c : Dev nD) (t : Fin cfg0.N) (p : Fin 4000) (q : Fin 128) (e : Fin 500000) (he : e.val = t.val * 4000 + p.val) :
    k0_pay1 (iblk0 V c 0 t) (iblk0 V c 1 t) (iblk0 V c 2 t) (iblk0 V c 4 t) (iblk0 V c 5 t) (iblk0 V c 6 t) (iblk0 V c 3 t)
        (iblk0 V c 7 t) (iblk0 V c 8 t) (ix2 p q)
      = angleOf V c (ix2 e q) := by
  rw [whole0_4 V c t, whole0_5 V c t, whole0_6 V c t, whole0_7 V c t, whole0_8 V c t]
  refine (pay_angle _ _ _ _ _ _ _ _ _ p q).trans ?_
  unfold angleOf
  rw [angleArr_ix2]
  have r0 : ∀ k : Fin 128, (iblk0 V c 0 t : Vec Ideal S4000x128 .bf16) (ix2 p k) = (V c main_v9 : S500000x128.Idx → EReal) (ix2 e k) :=
    fun k => rows0_0 V c t (ix2 p k) (ix2 e k) he rfl
  have r1 : ∀ k : Fin 128, (iblk0 V c 1 t : Vec Ideal S4000x128 .bf16) (ix2 p k) = (V c main_v18 : S500000x128.Idx → EReal) (ix2 e k) :=
    fun k => rows0_1 V c t (ix2 p k) (ix2 e k) he rfl
  have r2 : ∀ k : Fin 128, (iblk0 V c 2 t : Vec Ideal S4000x128 .bf16) (ix2 p k) = (V c main_v27 : S500000x128.Idx → EReal) (ix2 e k) :=
    fun k => rows0_2 V c t (ix2 p k) (ix2 e k) he rfl
  have r3 : (iblk0 V c 3 t : Vec Ideal S4000x1 .f32) (ix2 p (0 : Fin 1)) = (V c main_arg2 : S500000x1.Idx → EReal) (ix2 e (0 : Fin 1)) :=
    rows0_3 V c t (ix2 p (0 : Fin 1)) (ix2 e (0 : Fin 1)) he rfl
  simp only [r0, r1, r2, r3]

/-- The same at any entry `y` of the block. -/
theorem body0_all (c : Dev nD) (t : Fin cfg0.N) (y : S4000x128.Idx) (e : Fin 500000) (he : e.val = t.val * 4000 + (y 0).val) :
    k0_pay1 (iblk0 V c 0 t) (iblk0 V c 1 t) (iblk0 V c 2 t) (iblk0 V c 4 t) (iblk0 V c 5 t) (iblk0 V c 6 t) (iblk0 V c 3 t)
        (iblk0 V c 7 t) (iblk0 V c 8 t) y
      = angleOf V c (ix2 e (⟨(y 1).val, idx2_lt1 y⟩ : Fin 128)) :=
  (congrArg _ (eq_ix2 y)).trans (body0_at V c t ⟨(y 0).val, idx2_lt0 y⟩ ⟨(y 1).val, idx2_lt1 y⟩ e he)

/-- WHAT POINT `t` WRITES BACK is block `t` of the angle messages. -/
theorem flushed0 (c : Dev nD) (t : Fin cfg0.N) :
    (dat0 V c).flushed 9 t = ((cfg0.win 9).blk t).view.read (Elt Ideal) (angleOf V c) := by
  show (cfg0.win 9).cut (grid0.coords t) ((dat0 V c).after 9 t) = _
  rw [after0_9]
  unfold out0_9
  rw [View.canon_unit_zero hz2]
  simp only [View.ld_unit_zero (S := S4000x128) hz2, View.ld_unit_zero (S := S128x128) hz2, View.ld_unit_zero (S := S4000x1) hz2,
    View.ld_unit_zero (S := S1x128) hz2]
  obtain ⟨-, -, -, -, -, -, -, -, -, -, -, -, -, -, -, -, -, -, e0, e1⟩ := idx_facts0 t
  funext j
  have hN : cfg0.N = 125 := N_0
  have hj0 : (j 0).val < 4000 := (j 0).isLt
  have hj1 : (j 1).val < 128 := (j 1).isLt
  have ht : t.val < 125 := hN ▸ t.isLt
  refine (body0_all V c t j ⟨t.val * 4000 + (j 0).val, by omega⟩ rfl).trans ?_
  rw [View.read_apply]
  refine congrArg (angleOf V c) (funext fun a => Fin.ext ?_)
  match a with
  | ⟨0, _⟩ => show t.val * 4000 + (j 0).val = win0_9.index t (0 : Fin 2) * 4000 + 1 * (j 0).val; rw [e0]; omega
  | ⟨1, _⟩ => show (j 1).val = win0_9.index t (1 : Fin 2) * 128 + 1 * (j 1).val; rw [e1]; omega

/-- An index of the result is in point `t`'s block iff each coordinate is in the block's range on its axis. -/
theorem mem_blk0 (t : Fin cfg0.N) (i : S500000x128.Idx) :
    i ∈ ((cfg0.win 9).blk t).view.set ↔ ∀ a : Fin 2, win0_9.index t a * S4000x128.size a ≤ (i a).val ∧ (i a).val < win0_9.index t a * S4000x128.size a + S4000x128.size a := by
  show i ∈ ((View.whole main_v79).slice (win0_9.rect t)).set ↔ _
  rw [View.set_slice_whole, Rect.mem_set_unit]
  exact Iff.rfl

/-- Every edge's row is in the block of the point that works on it. -/
theorem cover0 (i : S500000x128.Idx) : ∃ t : Fin cfg0.N, (cfg0.win 9).flush t = true ∧ i ∈ ((cfg0.win 9).blk t).view.set := by
  have hN : cfg0.N = 125 := N_0
  have hi0 : (i 0).val < 500000 := (i 0).isLt
  have hi1 : (i 1).val < 128 := (i 1).isLt
  let t : Fin cfg0.N := ⟨(i 0).val / 4000, by rw [hN]; omega⟩
  obtain ⟨-, -, -, -, -, -, -, -, -, -, -, -, -, -, -, -, -, -, e0, e1⟩ := idx_facts0 t
  have e0' : win0_9.index t (0 : Fin 2) = (i 0).val / 4000 := e0
  refine ⟨t, flush0_9 t, ?_⟩
  rw [mem_blk0]
  intro a
  match a with
  | ⟨0, _⟩ => show win0_9.index t (0 : Fin 2) * 4000 ≤ (i 0).val ∧ (i 0).val < win0_9.index t (0 : Fin 2) * 4000 + 4000; rw [e0']; omega
  | ⟨1, _⟩ => show win0_9.index t (1 : Fin 2) * 128 ≤ (i 1).val ∧ (i 1).val < win0_9.index t (1 : Fin 2) * 128 + 128; rw [e1]; omega

/-- THE ARRAY after the region: all angle messages. -/
theorem final0 (c : Dev nD) : (dat0 V c).arrAt 9 cfg0.N = angleOf V c :=
  (dat0 V c).arrAt_eq_of_cover 9 (angleOf V c) (fun t _ => flushed0 V c t) cover0

end Cert.KernelIdeal.Hand

end
-- ==== Proof.Blocks1.lean ====
/-
  The dihedral kernel's result array. Grid point `t` of 125 works on rows `4000 t … 4000 t + 3999` of the four
  gathered row arrays and of the feature column, on the whole of each weight block, weight row and bias row, and writes
  rows `4000 t … 4000 t + 3999` of the result. What it writes is the dihedral message of each of those rows, so, the
  125 row blocks covering the array, the array ends as the dihedral messages of all 500000 edges — for whatever
  contents the region is entered with.
-/
import proofs.«164372_j55482387530475_2_alg».proof.Proof.FrameKI
import proofs.«164372_j55482387530475_2_alg».proof.Proof.Pay
import proofs.«164372_j55482387530475_2_alg».proof.Proof.Arrays
import Idealize.ShloMosaic.Lib.Pipeline.Value
import proofs.«164372_j55482387530475_2_alg».proof.Proof.Blocks0

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem Cert.Layer
open Idealize.ShloMosaic.Pipeline (Dat)

variable (V : (c : Dev nD) → (b : Ref sig .tc) → Buf (Elt Ideal) ((c : Thread nD τ).loc b))

/-- The block index of every window at every grid point: the row windows and the result at block `t` of rows, the
    weight and bias windows at their one block. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = t.val
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0 :=
  (by decide +kernel : ∀ t : Fin grid1.N, _)

/-! ## Each input block as entries of its array -/

theorem rows1_0 (c : Dev nD) (t : Fin cfg1.N) (y : S4000x128.Idx) (i : S500000x128.Idx)
    (h0 : (i 0).val = t.val * 4000 + (y 0).val) (h1 : (i 1).val = (y 1).val) :
    (iblk1 V c 0 t : Vec Ideal S4000x128 .bf16) y = (V c main_v36 : S500000x128.Idx → EReal) i := by
  obtain ⟨e0, e1, -⟩ := idx_facts1 t
  unfold iblk1
  rw [View.read_apply]
  show V c main_v36 _ = V c main_v36 _
  refine congrArg (V c main_v36) (funext fun a => Fin.ext ?_)
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

theorem rows1_1 (c : Dev nD) (t : Fin cfg1.N) (y : S4000x128.Idx) (i : S500000x128.Idx)
    (h0 : (i 0).val = t.val * 4000 + (y 0).val) (h1 : (i 1).val = (y 1).val) :
    (iblk1 V c 1 t : Vec Ideal S4000x128 .bf16) y = (V c main_v45 : S500000x128.Idx → EReal) i := by
  obtain ⟨-, -, e0, e1, -⟩ := idx_facts1 t
  unfold iblk1
  rw [View.read_apply]
  show V c main_v45 _ = V c main_v45 _
  refine congrArg (V c main_v45) (funext fun a => Fin.ext ?_)
  match a with
  | ⟨0, _⟩ => show win1_1.index t (0 : Fin 2) * 4000 + 1 * (y 0).val = (i 0).val; rw [e0, h0]; omega
  | ⟨1, _⟩ => show win1_1.index t (1 : Fin 2) * 128 + 1 * (y 1).val = (i 1).val; rw [e1, h1]; omega

theorem rows1_2 (c : Dev nD) (t : Fin cfg1.N) (y : S4000x128.Idx) (i : S500000x128.Idx)
    (h0 : (i 0).val = t.val * 4000 + (y 0).val) (h1 : (i 1).val = (y 1).val) :
    (iblk1 V c 2 t : Vec Ideal S4000x128 .bf16) y = (V c main_v54 : S500000x128.Idx → EReal) i := by
  obtain ⟨-, -, -, -, e0, e1, -⟩ := idx_facts1 t
  unfold iblk1
  rw [View.read_apply]
  show V c main_v54 _ = V c main_v54 _
  refine congrArg (V c main_v54) (funext fun a => Fin.ext ?_)
  match a with
  | ⟨0, _⟩ => show win1_2.index t (0 : Fin 2) * 4000 + 1 * (y 0).val = (i 0).val; rw [e0, h0]; omega
  | ⟨1, _⟩ => show win1_2.index t (1 : Fin 2) * 128 + 1 * (y 1).val = (i 1).val; rw [e1, h1]; omega

theorem rows1_3 (c : Dev nD) (t : Fin cfg1.N) (y : S4000x128.Idx) (i : S500000x128.Idx)
    (h0 : (i 0).val = t.val * 4000 + (y 0).val) (h1 : (i 1).val = (y 1).val) :
    (iblk1 V c 3 t : Vec Ideal S4000x128 .bf16) y = (V c main_v63 : S500000x128.Idx → EReal) i := by
  obtain ⟨-, -, -, -, -, -, e0, e1, -⟩ := idx_facts1 t
  unfold iblk1
  rw [View.read_apply]
  show V c main_v63 _ = V c main_v63 _
  refine congrArg (V c main_v63) (funext fun a => Fin.ext ?_)
  match a with
  | ⟨0, _⟩ => show win1_3.index t (0 : Fin 2) * 4000 + 1 * (y 0).val = (i 0).val; rw [e0, h0]; omega
  | ⟨1, _⟩ => show win1_3.index t (1 : Fin 2) * 128 + 1 * (y 1).val = (i 1).val; rw [e1, h1]; omega

theorem rows1_4 (c : Dev nD) (t : Fin cfg1.N) (y : S4000x1.Idx) (i : S500000x1.Idx)
    (h0 : (i 0).val = t.val * 4000 + (y 0).val) (h1 : (i 1).val = (y 1).val) :
    (iblk1 V c 4 t : Vec Ideal S4000x1 .f32) y = (V c main_arg4 : S500000x1.Idx → EReal) i := by
  obtain ⟨-, -, -, -, -, -, -, -, e0, e1, -⟩ := idx_facts1 t
  unfold iblk1
  rw [View.read_apply]
  show V c main_arg4 _ = V c main_arg4 _
  refine congrArg (V c main_arg4) (funext fun a => Fin.ext ?_)
  match a with
  | ⟨0, _⟩ => show win1_4.index t (0 : Fin 2) * 4000 + 1 * (y 0).val = (i 0).val; rw [e0, h0]; omega
  | ⟨1, _⟩ => show win1_4.index t (1 : Fin 2) * 1 + 1 * (y 1).val = (i 1).val; rw [e1, h1]; omega

theorem whole1_5 (c : Dev nD) (t : Fin cfg1.N) : (iblk1 V c 5 t : Vec Ideal S128x128 .f32) = (V c main_v68 : S128x128.Idx → EReal) := by
  obtain ⟨-, -, -, -, -, -, -, -, -, -, e0, e1, -⟩ := idx_facts1 t
  funext y
  unfold iblk1
  rw [View.read_apply]
  show V c main_v68 _ = V c main_v68 _
  refine congrArg (V c main_v68) (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem whole1_6 (c : Dev nD) (t : Fin cfg1.N) : (iblk1 V c 6 t : Vec Ideal S128x128 .f32) = (V c main_v69 : S128x128.Idx → EReal) := by
  obtain ⟨-, -, -, -, -, -, -, -, -, -, -, -, e0, e1, -⟩ := idx_facts1 t
  funext y
  unfold iblk1
  rw [View.read_apply]
  show V c main_v69 _ = V c main_v69 _
  refine congrArg (V c main_v69) (funext fun a => Fin.ext ?_)
  match a with
  | ⟨0, _⟩ => show win1_6.index t (0 : Fin 2) * 128 + 1 * (y 0).val = (y 0).val; rw [e0]; omega
  | ⟨1, _⟩ => show win1_6.index t (1 : Fin 2) * 128 + 1 * (y 1).val = (y 1).val; rw [e1]; omega

theorem whole1_7 (c : Dev nD) (t : Fin cfg1.N) : (iblk1 V c 7 t : Vec Ideal S128x128 .f32) = (V c main_v70 : S128x128.Idx → EReal) := by
  obtain ⟨-, -, -, -, -, -, -, -, -, -, -, -, -, -, e0, e1, -⟩ := idx_facts1 t
  funext y
  unfold iblk1
  rw [View.read_apply]
  show V c main_v70 _ = V c main_v70 _
  refine congrArg (V c main_v70) (funext fun a => Fin.ext ?_)
  match a with
  | ⟨0, _⟩ => show win1_7.index t (0 : Fin 2) * 128 + 1 * (y 0).val = (y 0).val; rw [e0]; omega
  | ⟨1, _⟩ => show win1_7.index t (1 : Fin 2) * 128 + 1 * (y 1).val = (y 1).val; rw [e1]; omega

theorem whole1_8 (c : Dev nD) (t : Fin cfg1.N) : (iblk1 V c 8 t : Vec Ideal S128x128 .f32) = (V c main_v71 : S128x128.Idx → EReal) := by
  obtain ⟨-, -, -, -, -, -, -, -, -, -, -, -, -, -, -, -, e0, e1, -⟩ := idx_facts1 t
  funext y
  unfold iblk1
  rw [View.read_apply]
  show V c main_v71 _ = V c main_v71 _
  refine congrArg (V c main_v71) (funext fun a => Fin.ext ?_)
  match a with
  | ⟨0, _⟩ => show win1_8.index t (0 : Fin 2) * 128 + 1 * (y 0).val = (y 0).val; rw [e0]; omega
  | ⟨1, _⟩ => show win1_8.index t (1 : Fin 2) * 128 + 1 * (y 1).val = (y 1).val; rw [e1]; omega

theorem whole1_9 (c : Dev nD) (t : Fin cfg1.N) : (iblk1 V c 9 t : Vec Ideal S1x128 .f32) = (V c main_v72 : S1x128.Idx → EReal) := by
  obtain ⟨-, -, -, -, -, -, -, -, -, -, -, -, -, -, -, -, -, -, e0, e1, -⟩ := idx_facts1 t
  funext y
  unfold iblk1
  rw [View.read_apply]
  show V c main_v72 _ = V c main_v72 _
  refine congrArg (V c main_v72) (funext fun a => Fin.ext ?_)
  match a with
  | ⟨0, _⟩ => show win1_9.index t (0 : Fin 2) * 1 + 1 * (y 0).val = (y 0).val; rw [e0]; omega
  | ⟨1, _⟩ => show win1_9.index t (1 : Fin 2) * 128 + 1 * (y 1).val = (y 1).val; rw [e1]; omega

theorem whole1_10 (c : Dev nD) (t : Fin cfg1.N) : (iblk1 V c 10 t : Vec Ideal S1x128 .f32) = (V c main_v77 : S1x128.Idx → EReal) := by
  obtain ⟨-, -, -, -, -, -, -, -, -, -, -, -, -, -, -, -, -, -, -, -, e0, e1, -⟩ := idx_facts1 t
  funext y
  unfold iblk1
  rw [View.read_apply]
  show V c main_v77 _ = V c main_v77 _
  refine congrArg (V c main_v77) (funext fun a => Fin.ext ?_)
  match a with
  | ⟨0, _⟩ => show win1_10.index t (0 : Fin 2) * 1 + 1 * (y 0).val = (y 0).val; rw [e0]; omega
  | ⟨1, _⟩ => show win1_10.index t (1 : Fin 2) * 128 + 1 * (y 1).val = (y 1).val; rw [e1]; omega

/-! ## The write-back, the cover, the array -/

/-- All dihedral messages, from the contents the region is entered with. -/
abbrev dihedralOf (c : Dev nD) : S500000x128.Idx → EReal :=
  dihedralArr (V c main_v36 : S500000x128.Idx → EReal) (V c main_v45 : S500000x128.Idx → EReal) (V c main_v54 : S500000x128.Idx → EReal)
    (V c main_v63 : S500000x128.Idx → EReal) (V c main_arg4 : S500000x1.Idx → EReal)
    (V c main_v68 : S128x128.Idx → EReal) (V c main_v69 : S128x128.Idx → EReal) (V c main_v70 : S128x128.Idx → EReal)
    (V c main_v71 : S128x128.Idx → EReal) (V c main_v72 : S1x128.Idx → EReal) (V c main_v77 : S1x128.Idx → EReal)

/-- The body's value at entry `(p, q)` of point `t`'s block is the dihedral message of edge `4000 t + p`. -/
theorem body1_at (c : Dev nD) (t : Fin cfg1.N) (p : Fin 4000) (q : Fin 128) (e : Fin 500000) (he : e.val = t.val * 4000 + p.val) :
    k1_pay1 (k1_pay2 (iblk1 V c 0 t) (iblk1 V c 1 t) (iblk1 V c 2 t) (iblk1 V c 3 t) (iblk1 V c 5 t) (iblk1 V c 6 t) (iblk1 V c 7 t)
        (iblk1 V c 8 t) (iblk1 V c 4 t) (iblk1 V c 9 t)) (iblk1 V c 10 t) (ix2 p q)
      = dihedralOf V c (ix2 e q) := by
  rw [whole1_5 V c t, whole1_6 V c t, whole1_7 V c t, whole1_8 V c t, whole1_9 V c t, whole1_10 V c t]
  refine (pay_dihedral _ _ _ _ _ _ _ _ _ _ _ p q).trans ?_
  unfold dihedralOf
  rw [dihedralArr_ix2]
  have r0 : ∀ k : Fin 128, (iblk1 V c 0 t : Vec Ideal S4000x128 .bf16) (ix2 p k) = (V c main_v36 : S500000x128.Idx → EReal) (ix2 e k) :=
    fun k => rows1_0 V c t (ix2 p k) (ix2 e k) he rfl
  have r1 : ∀ k : Fin 128, (iblk1 V c 1 t : Vec Ideal S4000x128 .bf16) (ix2 p k) = (V c main_v45 : S500000x128.Idx → EReal) (ix2 e k) :=
    fun k => rows1_1 V c t (ix2 p k) (ix2 e k) he rfl
  have r2 : ∀ k : Fin 128, (iblk1 V c 2 t : Vec Ideal S4000x128 .bf16) (ix2 p k) = (V c main_v54 : S500000x128.Idx → EReal) (ix2 e k) :=
    fun k => rows1_2 V c t (ix2 p k) (ix2 e k) he rfl
  have r3 : ∀ k : Fin 128, (iblk1 V c 3 t : Vec Ideal S4000x128 .bf16) (ix2 p k) = (V c main_v63 : S500000x128.Idx → EReal) (ix2 e k) :=
    fun k => rows1_3 V c t (ix2 p k) (ix2 e k) he rfl
  have r4 : (iblk1 V c 4 t : Vec Ideal S4000x1 .f32) (ix2 p (0 : Fin 1)) = (V c main_arg4 : S500000x1.Idx → EReal) (ix2 e (0 : Fin 1)) :=
    rows1_4 V c t (ix2 p (0 : Fin 1)) (ix2 e (0 : Fin 1)) he rfl
  simp only [r0, r1, r2, r3, r4]

/-- The same at any entry `y` of the block. -/
theorem body1_all (c : Dev nD) (t : Fin cfg1.N) (y : S4000x128.Idx) (e : Fin 500000) (he : e.val = t.val * 4000 + (y 0).val) :
    k1_pay1 (k1_pay2 (iblk1 V c 0 t) (iblk1 V c 1 t) (iblk1 V c 2 t) (iblk1 V c 3 t) (iblk1 V c 5 t) (iblk1 V c 6 t) (iblk1 V c 7 t)
        (iblk1 V c 8 t) (iblk1 V c 4 t) (iblk1 V c 9 t)) (iblk1 V c 10 t) y
      = dihedralOf V c (ix2 e (⟨(y 1).val, idx2_lt1 y⟩ : Fin 128)) :=
  (congrArg _ (eq_ix2 y)).trans (body1_at V c t ⟨(y 0).val, idx2_lt0 y⟩ ⟨(y 1).val, idx2_lt1 y⟩ e he)

/-- WHAT POINT `t` WRITES BACK is block `t` of the dihedral messages. -/
theorem flushed1 (c : Dev nD) (t : Fin cfg1.N) :
    (dat1 V c).flushed 11 t = ((cfg1.win 11).blk t).view.read (Elt Ideal) (dihedralOf V c) := by
  show (cfg1.win 11).cut (grid1.coords t) ((dat1 V c).after 11 t) = _
  rw [after1_11]
  unfold out1_11
  rw [View.canon_unit_zero hz2]
  simp only [View.ld_unit_zero (S := S4000x128) hz2, View.ld_unit_zero (S := S128x128) hz2, View.ld_unit_zero (S := S4000x1) hz2,
    View.ld_unit_zero (S := S1x128) hz2]
  obtain ⟨-, -, -, -, -, -, -, -, -, -, -, -, -, -, -, -, -, -, -, -, -, -, e0, e1⟩ := idx_facts1 t
  funext j
  have hN : cfg1.N = 125 := N_1
  have hj0 : (j 0).val < 4000 := (j 0).isLt
  have hj1 : (j 1).val < 128 := (j 1).isLt
  have ht : t.val < 125 := hN ▸ t.isLt
  refine (body1_all V c t j ⟨t.val * 4000 + (j 0).val, by omega⟩ rfl).trans ?_
  rw [View.read_apply]
  refine congrArg (dihedralOf V c) (funext fun a => Fin.ext ?_)
  match a with
  | ⟨0, _⟩ => show t.val * 4000 + (j 0).val = win1_11.index t (0 : Fin 2) * 4000 + 1 * (j 0).val; rw [e0]; omega
  | ⟨1, _⟩ => show (j 1).val = win1_11.index t (1 : Fin 2) * 128 + 1 * (j 1).val; rw [e1]; omega

/-- An index of the result is in point `t`'s block iff each coordinate is in the block's range on its axis. -/
theorem mem_blk1 (t : Fin cfg1.N) (i : S500000x128.Idx) :
    i ∈ ((cfg1.win 11).blk t).view.set ↔ ∀ a : Fin 2, win1_11.index t a * S4000x128.size a ≤ (i a).val ∧ (i a).val < win1_11.index t a * S4000x128.size a + S4000x128.size a := by
  show i ∈ ((View.whole main_v80).slice (win1_11.rect t)).set ↔ _
  rw [View.set_slice_whole, Rect.mem_set_unit]
  exact Iff.rfl

/-- Every edge's row is in the block of the point that works on it. -/
theorem cover1 (i : S500000x128.Idx) : ∃ t : Fin cfg1.N, (cfg1.win 11).flush t = true ∧ i ∈ ((cfg1.win 11).blk t).view.set := by
  have hN : cfg1.N = 125 := N_1
  have hi0 : (i 0).val < 500000 := (i 0).isLt
  have hi1 : (i 1).val < 128 := (i 1).isLt
  let t : Fin cfg1.N := ⟨(i 0).val / 4000, by rw [hN]; omega⟩
  obtain ⟨-, -, -, -, -, -, -, -, -, -, -, -, -, -, -, -, -, -, -, -, -, -, e0, e1⟩ := idx_facts1 t
  have e0' : win1_11.index t (0 : Fin 2) = (i 0).val / 4000 := e0
  refine ⟨t, flush1_11 t, ?_⟩
  rw [mem_blk1]
  intro a
  match a with
  | ⟨0, _⟩ => show win1_11.index t (0 : Fin 2) * 4000 ≤ (i 0).val ∧ (i 0).val < win1_11.index t (0 : Fin 2) * 4000 + 4000; rw [e0']; omega
  | ⟨1, _⟩ => show win1_11.index t (1 : Fin 2) * 128 ≤ (i 1).val ∧ (i 1).val < win1_11.index t (1 : Fin 2) * 128 + 128; rw [e1]; omega

/-- THE ARRAY after the region: all dihedral messages. -/
theorem final1 (c : Dev nD) : (dat1 V c).arrAt 11 cfg1.N = dihedralOf V c :=
  (dat1 V c).arrAt_eq_of_cover 11 (dihedralOf V c) (fun t _ => flushed1 V c t) cover1

end Cert.KernelIdeal.Hand

end
-- ==== Proof.Blocks2.lean ====
/-
  The node kernel's result array. Grid point `t` of 50 works on rows `2000 t … 2000 t + 1999` of the node array and
  of the two aggregate arrays, on the whole of each weight block and of the bias row, and writes rows
  `2000 t … 2000 t + 1999` of the result. What it writes is the update of each of those rows, so, the 50 row blocks
  covering the array, the array ends as the update of all 100000 nodes — for whatever contents the region is
  entered with.
-/
import proofs.«164372_j55482387530475_2_alg».proof.Proof.FrameKI
import proofs.«164372_j55482387530475_2_alg».proof.Proof.Pay
import proofs.«164372_j55482387530475_2_alg».proof.Proof.Arrays
import Idealize.ShloMosaic.Lib.Pipeline.Value
import proofs.«164372_j55482387530475_2_alg».proof.Proof.Blocks0

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem Cert.Layer
open Idealize.ShloMosaic.Pipeline (Dat)

variable (V : (c : Dev nD) → (b : Ref sig .tc) → Buf (Elt Ideal) ((c : Thread nD τ).loc b))

/-- The block index of every window at every grid point: the row windows and the result at block `t` of rows, the
    weight and bias windows at their one block. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0 :=
  (by decide +kernel : ∀ t : Fin grid2.N, _)

/-! ## Each input block as entries of its array -/

theorem rows2_0 (c : Dev nD) (t : Fin cfg2.N) (y : S2000x128.Idx) (i : S100000x128.Idx)
    (h0 : (i 0).val = t.val * 2000 + (y 0).val) (h1 : (i 1).val = (y 1).val) :
    (iblk2 V c 0 t : Vec Ideal S2000x128 .f32) y = (V c main_arg0 : S100000x128.Idx → EReal) i := by
  obtain ⟨e0, e1, -⟩ := idx_facts2 t
  unfold iblk2
  rw [View.read_apply]
  show V c main_arg0 _ = V c main_arg0 _
  refine congrArg (V c main_arg0) (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

theorem rows2_1 (c : Dev nD) (t : Fin cfg2.N) (y : S2000x128.Idx) (i : S100000x128.Idx)
    (h0 : (i 0).val = t.val * 2000 + (y 0).val) (h1 : (i 1).val = (y 1).val) :
    (iblk2 V c 1 t : Vec Ideal S2000x128 .f32) y = (V c main_v85 : S100000x128.Idx → EReal) i := by
  obtain ⟨-, -, e0, e1, -⟩ := idx_facts2 t
  unfold iblk2
  rw [View.read_apply]
  show V c main_v85 _ = V c main_v85 _
  refine congrArg (V c main_v85) (funext fun a => Fin.ext ?_)
  match a with
  | ⟨0, _⟩ => show win2_1.index t (0 : Fin 2) * 2000 + 1 * (y 0).val = (i 0).val; rw [e0, h0]; omega
  | ⟨1, _⟩ => show win2_1.index t (1 : Fin 2) * 128 + 1 * (y 1).val = (i 1).val; rw [e1, h1]; omega

theorem rows2_2 (c : Dev nD) (t : Fin cfg2.N) (y : S2000x128.Idx) (i : S100000x128.Idx)
    (h0 : (i 0).val = t.val * 2000 + (y 0).val) (h1 : (i 1).val = (y 1).val) :
    (iblk2 V c 2 t : Vec Ideal S2000x128 .f32) y = (V c main_v90 : S100000x128.Idx → EReal) i := by
  obtain ⟨-, -, -, -, e0, e1, -⟩ := idx_facts2 t
  unfold iblk2
  rw [View.read_apply]
  show V c main_v90 _ = V c main_v90 _
  refine congrArg (V c main_v90) (funext fun a => Fin.ext ?_)
  match a with
  | ⟨0, _⟩ => show win2_2.index t (0 : Fin 2) * 2000 + 1 * (y 0).val = (i 0).val; rw [e0, h0]; omega
  | ⟨1, _⟩ => show win2_2.index t (1 : Fin 2) * 128 + 1 * (y 1).val = (i 1).val; rw [e1, h1]; omega

theorem whole2_3 (c : Dev nD) (t : Fin cfg2.N) : (iblk2 V c 3 t : Vec Ideal S128x128 .f32) = (V c main_v73 : S128x128.Idx → EReal) := by
  obtain ⟨-, -, -, -, -, -, e0, e1, -⟩ := idx_facts2 t
  funext y
  unfold iblk2
  rw [View.read_apply]
  show V c main_v73 _ = V c main_v73 _
  refine congrArg (V c main_v73) (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem whole2_4 (c : Dev nD) (t : Fin cfg2.N) : (iblk2 V c 4 t : Vec Ideal S128x128 .f32) = (V c main_v74 : S128x128.Idx → EReal) := by
  obtain ⟨-, -, -, -, -, -, -, -, e0, e1, -⟩ := idx_facts2 t
  funext y
  unfold iblk2
  rw [View.read_apply]
  show V c main_v74 _ = V c main_v74 _
  refine congrArg (V c main_v74) (funext fun a => Fin.ext ?_)
  match a with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

theorem whole2_5 (c : Dev nD) (t : Fin cfg2.N) : (iblk2 V c 5 t : Vec Ideal S128x128 .f32) = (V c main_v75 : S128x128.Idx → EReal) := by
  obtain ⟨-, -, -, -, -, -, -, -, -, -, e0, e1, -⟩ := idx_facts2 t
  funext y
  unfold iblk2
  rw [View.read_apply]
  show V c main_v75 _ = V c main_v75 _
  refine congrArg (V c main_v75) (funext fun a => Fin.ext ?_)
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem whole2_6 (c : Dev nD) (t : Fin cfg2.N) : (iblk2 V c 6 t : Vec Ideal S1x128 .f32) = (V c main_v78 : S1x128.Idx → EReal) := by
  obtain ⟨-, -, -, -, -, -, -, -, -, -, -, -, e0, e1, -⟩ := idx_facts2 t
  funext y
  unfold iblk2
  rw [View.read_apply]
  show V c main_v78 _ = V c main_v78 _
  refine congrArg (V c main_v78) (funext fun a => Fin.ext ?_)
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-! ## The write-back, the cover, the array -/

/-- All updated node entries, from the contents the region is entered with. -/
abbrev updateOf (c : Dev nD) : S100000x128.Idx → EReal :=
  updateArr (V c main_arg0 : S100000x128.Idx → EReal) (V c main_v85 : S100000x128.Idx → EReal) (V c main_v90 : S100000x128.Idx → EReal)
    (V c main_v73 : S128x128.Idx → EReal) (V c main_v74 : S128x128.Idx → EReal) (V c main_v75 : S128x128.Idx → EReal)
    (V c main_v78 : S1x128.Idx → EReal)

/-- The body's value at entry `(p, q)` of point `t`'s block is the update of node `2000 t + p`. -/
theorem body2_at (c : Dev nD) (t : Fin cfg2.N) (p : Fin 2000) (q : Fin 128) (e : Fin 100000) (he : e.val = t.val * 2000 + p.val) :
    k2_pay1 (iblk2 V c 0 t) (iblk2 V c 1 t) (iblk2 V c 2 t) (iblk2 V c 3 t) (iblk2 V c 4 t) (iblk2 V c 5 t) (iblk2 V c 6 t) (ix2 p q)
      = updateOf V c (ix2 e q) := by
  rw [whole2_3 V c t, whole2_4 V c t, whole2_5 V c t, whole2_6 V c t]
  refine (pay_update _ _ _ _ _ _ _ p q).trans ?_
  unfold updateOf
  rw [updateArr_ix2]
  have r0 : ∀ k : Fin 128, (iblk2 V c 0 t : Vec Ideal S2000x128 .f32) (ix2 p k) = (V c main_arg0 : S100000x128.Idx → EReal) (ix2 e k) :=
    fun k => rows2_0 V c t (ix2 p k) (ix2 e k) he rfl
  have r1 : ∀ k : Fin 128, (iblk2 V c 1 t : Vec Ideal S2000x128 .f32) (ix2 p k) = (V c main_v85 : S100000x128.Idx → EReal) (ix2 e k) :=
    fun k => rows2_1 V c t (ix2 p k) (ix2 e k) he rfl
  have r2 : ∀ k : Fin 128, (iblk2 V c 2 t : Vec Ideal S2000x128 .f32) (ix2 p k) = (V c main_v90 : S100000x128.Idx → EReal) (ix2 e k) :=
    fun k => rows2_2 V c t (ix2 p k) (ix2 e k) he rfl
  simp only [r0, r1, r2]

/-- The same at any entry `y` of the block. -/
theorem body2_all (c : Dev nD) (t : Fin cfg2.N) (y : S2000x128.Idx) (e : Fin 100000) (he : e.val = t.val * 2000 + (y 0).val) :
    k2_pay1 (iblk2 V c 0 t) (iblk2 V c 1 t) (iblk2 V c 2 t) (iblk2 V c 3 t) (iblk2 V c 4 t) (iblk2 V c 5 t) (iblk2 V c 6 t) y
      = updateOf V c (ix2 e (⟨(y 1).val, idx2_lt1 y⟩ : Fin 128)) :=
  (congrArg _ (eq_ix2 y)).trans (body2_at V c t ⟨(y 0).val, idx2_lt0 y⟩ ⟨(y 1).val, idx2_lt1 y⟩ e he)

/-- WHAT POINT `t` WRITES BACK is block `t` of the updated entries. -/
theorem flushed2 (c : Dev nD) (t : Fin cfg2.N) :
    (dat2 V c).flushed 7 t = ((cfg2.win 7).blk t).view.read (Elt Ideal) (updateOf V c) := by
  show (cfg2.win 7).cut (grid2.coords t) ((dat2 V c).after 7 t) = _
  rw [after2_7]
  unfold out2_7
  rw [View.canon_unit_zero hz2]
  simp only [View.ld_unit_zero (S := S2000x128) hz2, View.ld_unit_zero (S := S128x128) hz2, View.ld_unit_zero (S := S1x128) hz2]
  obtain ⟨-, -, -, -, -, -, -, -, -, -, -, -, -, -, e0, e1⟩ := idx_facts2 t
  funext j
  have hN : cfg2.N = 50 := N_2
  have hj0 : (j 0).val < 2000 := (j 0).isLt
  have hj1 : (j 1).val < 128 := (j 1).isLt
  have ht : t.val < 50 := hN ▸ t.isLt
  refine (body2_all V c t j ⟨t.val * 2000 + (j 0).val, by omega⟩ rfl).trans ?_
  rw [View.read_apply]
  refine congrArg (updateOf V c) (funext fun a => Fin.ext ?_)
  match a with
  | ⟨0, _⟩ => show t.val * 2000 + (j 0).val = win2_7.index t (0 : Fin 2) * 2000 + 1 * (j 0).val; rw [e0]; omega
  | ⟨1, _⟩ => show (j 1).val = win2_7.index t (1 : Fin 2) * 128 + 1 * (j 1).val; rw [e1]; omega

/-- An index of the result is in point `t`'s block iff each coordinate is in the block's range on its axis. -/
theorem mem_blk2 (t : Fin cfg2.N) (i : S100000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v91).slice (win2_7.rect t)).set ↔ _
  rw [View.set_slice_whole, Rect.mem_set_unit]
  exact Iff.rfl

/-- Every node's row is in the block of the point that works on it. -/
theorem cover2 (i : S100000x128.Idx) : ∃ t : Fin cfg2.N, (cfg2.win 7).flush t = true ∧ i ∈ ((cfg2.win 7).blk t).view.set := by
  have hN : cfg2.N = 50 := N_2
  have hi0 : (i 0).val < 100000 := (i 0).isLt
  have hi1 : (i 1).val < 128 := (i 1).isLt
  let t : Fin cfg2.N := ⟨(i 0).val / 2000, by rw [hN]; omega⟩
  obtain ⟨-, -, -, -, -, -, -, -, -, -, -, -, -, -, e0, e1⟩ := idx_facts2 t
  have e0' : win2_7.index t (0 : Fin 2) = (i 0).val / 2000 := e0
  refine ⟨t, flush2_7 t, ?_⟩
  rw [mem_blk2]
  intro a
  match a with
  | ⟨0, _⟩ => show win2_7.index t (0 : Fin 2) * 2000 ≤ (i 0).val ∧ (i 0).val < win2_7.index t (0 : Fin 2) * 2000 + 2000; rw [e0']; omega
  | ⟨1, _⟩ => show win2_7.index t (1 : Fin 2) * 128 ≤ (i 1).val ∧ (i 1).val < win2_7.index t (1 : Fin 2) * 128 + 128; rw [e1]; omega

/-- THE ARRAY after the region: the update of every node. -/
theorem final2 (c : Dev nD) : (dat2 V c).arrAt 7 cfg2.N = updateOf V c :=
  (dat2 V c).arrAt_eq_of_cover 7 (updateOf V c) (fun t _ => flushed2 V c t) cover2

end Cert.KernelIdeal.Hand

end
-- ==== Proof.HostK0.lean ====
/-
  What the angle kernel is entered with, read off the host operations before it: its three row arrays are the rows of
  the node array gathered at the three columns of the angle index array — the same gathers, of the same index
  arithmetic, that the reference states (the change to a narrower float format before the gather is the identity at
  the ideal values) —, its feature column is the argument, its three weight blocks are rows `0 … 127`, `128 … 255`,
  `256 … 383` of the angle weight matrix, its weight row is row 384, and its bias row is the bias vector.
-/
import proofs.«164372_j55482387530475_2_alg».proof.Proof.FrameKI
import proofs.«164372_j55482387530475_2_alg».proof.Proof.Gen.ReferenceIdeal.Read
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The contents the angle kernel is entered with are the launch contents after the first stretch of host operations. -/
theorem V1_eq (c : Dev nD) (b : Ref sig .tc) : V1 m ρ c b = StableHlo.after hostOps0 (W0 m ρ c) (Proc.devRef .tc b) := rfl

theorem K0_v9 (c : Dev nD) : (V1 m ρ c main_v9 : S500000x128.Idx → EReal)
    = Cert.ReferenceIdeal.Read.val_main_v8 (F := Ideal) (m ((c : Thread nD τ).loc main_arg0)) (m ((c : Thread nD τ).loc main_arg1)) := by
  show StableHlo.after hostOps0 (W0 m ρ c) (Proc.devRef .tc main_v9) = _
  dsimp only [hostOps0]
  after_results_simp
  rfl

theorem K0_v18 (c : Dev nD) : (V1 m ρ c main_v18 : S500000x128.Idx → EReal)
    = Cert.ReferenceIdeal.Read.val_main_v17 (F := Ideal) (m ((c : Thread nD τ).loc main_arg0)) (m ((c : Thread nD τ).loc main_arg1)) := by
  show StableHlo.after hostOps0 (W0 m ρ c) (Proc.devRef .tc main_v18) = _
  dsimp only [hostOps0]
  after_results_simp
  rfl

theorem K0_v27 (c : Dev nD) : (V1 m ρ c main_v27 : S500000x128.Idx → EReal)
    = Cert.ReferenceIdeal.Read.val_main_v26 (F := Ideal) (m ((c : Thread nD τ).loc main_arg0)) (m ((c : Thread nD τ).loc main_arg1)) := by
  show StableHlo.after hostOps0 (W0 m ρ c) (Proc.devRef .tc main_v27) = _
  dsimp only [hostOps0]
  after_results_simp
  rfl

theorem K0_arg2 (c : Dev nD) : V1 m ρ c main_arg2 = m ((c : Thread nD τ).loc main_arg2) := by
  show StableHlo.after hostOps0 (W0 m ρ c) (Proc.devRef .tc main_arg2) = _
  dsimp only [hostOps0]
  after_results_simp

theorem K0_v64 (c : Dev nD) (k q : Fin 128) : (V1 m ρ c main_v64 : S128x128.Idx → EReal) (ix2 k q)
    = (m ((c : Thread nD τ).loc main_arg5) : S385x128.Idx → EReal) (ix2 (⟨k.val, by omega⟩ : Fin 385) q) := by
  have e : (V1 m ρ c main_v64 : S128x128.Idx → EReal)
      = extractStridedSlice S128x128 ![0, 0] (m ((c : Thread nD τ).loc main_arg5) : S385x128.Idx → EReal) slices_S385x128_S128x128_0_0 := by
    show StableHlo.after hostOps0 (W0 m ρ c) (Proc.devRef .tc main_v64) = _
    dsimp only [hostOps0]
    after_results_simp
  rw [e]
  exact slice2_axis0_apply 0 _ _ k q _ (Nat.zero_add _).symm

theorem K0_v65 (c : Dev nD) (k q : Fin 128) : (V1 m ρ c main_v65 : S128x128.Idx → EReal) (ix2 k q)
    = (m ((c : Thread nD τ).loc main_arg5) : S385x128.Idx → EReal) (ix2 (⟨128 + k.val, by omega⟩ : Fin 385) q) := by
  have e : (V1 m ρ c main_v65 : S128x128.Idx → EReal)
      = extractStridedSlice S128x128 ![128, 0] (m ((c : Thread nD τ).loc main_arg5) : S385x128.Idx → EReal) slices_S385x128_S128x128_128_0 := by
    show StableHlo.after hostOps0 (W0 m ρ c) (Proc.devRef .tc main_v65) = _
    dsimp only [hostOps0]
    after_results_simp
  rw [e]
  exact slice2_axis0_apply 128 _ _ k q _ rfl

theorem K0_v66 (c : Dev nD) (k q : Fin 128) : (V1 m ρ c main_v66 : S128x128.Idx → EReal) (ix2 k q)
    = (m ((c : Thread nD τ).loc main_arg5) : S385x128.Idx → EReal) (ix2 (⟨128 + 128 + k.val, by omega⟩ : Fin 385) q) := by
  have e : (V1 m ρ c main_v66 : S128x128.Idx → EReal)
      = extractStridedSlice S128x128 ![256, 0] (m ((c : Thread nD τ).loc main_arg5) : S385x128.Idx → EReal) slices_S385x128_S128x128_256_0 := by
    show StableHlo.after hostOps0 (W0 m ρ c) (Proc.devRef .tc main_v66) = _
    dsimp only [hostOps0]
    after_results_simp
  rw [e]
  exact slice2_axis0_apply 256 _ _ k q _ rfl

theorem K0_v67 (c : Dev nD) (q : Fin 128) : (V1 m ρ c main_v67 : S1x128.Idx → EReal) (ix2 (0 : Fin 1) q)
    = (m ((c : Thread nD τ).loc main_arg5) : S385x128.Idx → EReal) (ix2 (⟨128 + 128 + 128, by omega⟩ : Fin 385) q) := by
  have e : (V1 m ρ c main_v67 : S1x128.Idx → EReal)
      = extractStridedSlice S1x128 ![384, 0] (m ((c : Thread nD τ).loc main_arg5) : S385x128.Idx → EReal) slices_S385x128_S1x128_384_0 := by
    show StableHlo.after hostOps0 (W0 m ρ c) (Proc.devRef .tc main_v67) = _
    dsimp only [hostOps0]
    after_results_simp
  rw [e]
  exact slice2_axis0_apply 384 _ _ (0 : Fin 1) q _ rfl

theorem K0_v76 (c : Dev nD) (q : Fin 128) : (V1 m ρ c main_v76 : S1x128.Idx → EReal) (ix2 (0 : Fin 1) q)
    = (m ((c : Thread nD τ).loc main_arg6) : S128.Idx → EReal) (ix1 q) := by
  have e : (V1 m ρ c main_v76 : S1x128.Idx → EReal)
      = shapeCast S1x128 (m ((c : Thread nD τ).loc main_arg6) : S128.Idx → EReal) shapeCasts_S128_S1x128 := by
    show StableHlo.after hostOps0 (W0 m ρ c) (Proc.devRef .tc main_v76) = _
    dsimp only [hostOps0]
    after_results_simp
    rfl
  rw [e]
  exact shapeCast_a_1a_apply _ _ (0 : Fin 1) q

end Cert.KernelIdeal.Hand

end
-- ==== Proof.HostK1.lean ====
/-
  What the dihedral kernel is entered with. The angle kernel leaves every array but its own result as it found it, so
  these are read off the host operations before the first kernel: the four row arrays are the rows of the node array
  gathered at the four columns of the dihedral index array — the reference's gathers —, the feature column is the
  argument, the four weight blocks are rows `0 … 127`, …, `384 … 511` of the dihedral weight matrix, the weight row is
  row 512, and the bias row is the bias vector.
-/
import proofs.«164372_j55482387530475_2_alg».proof.Proof.FrameKI
import proofs.«164372_j55482387530475_2_alg».proof.Proof.Gen.ReferenceIdeal.Read
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- Outside the angle kernel's result, the dihedral kernel is entered with what the angle kernel was entered with. -/
theorem V2_eq (c : Dev nD) (b : Ref sig .tc) (hb : ∀ w, Pipeline.arrRef spec0 w ≠ b) :
    V2 m ρ c b = StableHlo.after hostOps0 (W0 m ρ c) (Proc.devRef .tc b) := W2_of_ne m ρ c b hb

theorem K1_v36 (c : Dev nD) : (V2 m ρ c main_v36 : S500000x128.Idx → EReal)
    = Cert.ReferenceIdeal.Read.val_main_v46 (F := Ideal) (m ((c : Thread nD τ).loc main_arg0)) (m ((c : Thread nD τ).loc main_arg3)) := by
  rw [V2_eq m ρ c main_v36 (by decide)]
  dsimp only [hostOps0]
  after_results_simp
  rfl

theorem K1_v45 (c : Dev nD) : (V2 m ρ c main_v45 : S500000x128.Idx → EReal)
    = Cert.ReferenceIdeal.Read.val_main_v55 (F := Ideal) (m ((c : Thread nD τ).loc main_arg0)) (m ((c : Thread nD τ).loc main_arg3)) := by
  rw [V2_eq m ρ c main_v45 (by decide)]
  dsimp only [hostOps0]
  after_results_simp
  rfl

theorem K1_v54 (c : Dev nD) : (V2 m ρ c main_v54 : S500000x128.Idx → EReal)
    = Cert.ReferenceIdeal.Read.val_main_v64 (F := Ideal) (m ((c : Thread nD τ).loc main_arg0)) (m ((c : Thread nD τ).loc main_arg3)) := by
  rw [V2_eq m ρ c main_v54 (by decide)]
  dsimp only [hostOps0]
  after_results_simp
  rfl

theorem K1_v63 (c : Dev nD) : (V2 m ρ c main_v63 : S500000x128.Idx → EReal)
    = Cert.ReferenceIdeal.Read.val_main_v73 (F := Ideal) (m ((c : Thread nD τ).loc main_arg0)) (m ((c : Thread nD τ).loc main_arg3)) := by
  rw [V2_eq m ρ c main_v63 (by decide)]
  dsimp only [hostOps0]
  after_results_simp
  rfl

theorem K1_arg4 (c : Dev nD) : V2 m ρ c main_arg4 = m ((c : Thread nD τ).loc main_arg4) := by
  rw [V2_eq m ρ c main_arg4 (by decide)]
  dsimp only [hostOps0]
  after_results_simp

theorem K1_v68 (c : Dev nD) (k q : Fin 128) : (V2 m ρ c main_v68 : S128x128.Idx → EReal) (ix2 k q)
    = (m ((c : Thread nD τ).loc main_arg7) : S513x128.Idx → EReal) (ix2 (⟨k.val, by omega⟩ : Fin 513) q) := by
  have e : (V2 m ρ c main_v68 : S128x128.Idx → EReal)
      = extractStridedSlice S128x128 ![0, 0] (m ((c : Thread nD τ).loc main_arg7) : S513x128.Idx → EReal) slices_S513x128_S128x128_0_0 := by
    rw [V2_eq m ρ c main_v68 (by decide)]
    dsimp only [hostOps0]
    after_results_simp
  rw [e]
  exact slice2_axis0_apply 0 _ _ k q _ (Nat.zero_add _).symm

theorem K1_v69 (c : Dev nD) (k q : Fin 128) : (V2 m ρ c main_v69 : S128x128.Idx → EReal) (ix2 k q)
    = (m ((c : Thread nD τ).loc main_arg7) : S513x128.Idx → EReal) (ix2 (⟨128 + k.val, by omega⟩ : Fin 513) q) := by
  have e : (V2 m ρ c main_v69 : S128x128.Idx → EReal)
      = extractStridedSlice S128x128 ![128, 0] (m ((c : Thread nD τ).loc main_arg7) : S513x128.Idx → EReal) slices_S513x128_S128x128_128_0 := by
    rw [V2_eq m ρ c main_v69 (by decide)]
    dsimp only [hostOps0]
    after_results_simp
  rw [e]
  exact slice2_axis0_apply 128 _ _ k q _ rfl

theorem K1_v70 (c : Dev nD) (k q : Fin 128) : (V2 m ρ c main_v70 : S128x128.Idx → EReal) (ix2 k q)
    = (m ((c : Thread nD τ).loc main_arg7) : S513x128.Idx → EReal) (ix2 (⟨128 + 128 + k.val, by omega⟩ : Fin 513) q) := by
  have e : (V2 m ρ c main_v70 : S128x128.Idx → EReal)
      = extractStridedSlice S128x128 ![256, 0] (m ((c : Thread nD τ).loc main_arg7) : S513x128.Idx → EReal) slices_S513x128_S128x128_256_0 := by
    rw [V2_eq m ρ c main_v70 (by decide)]
    dsimp only [hostOps0]
    after_results_simp
  rw [e]
  exact slice2_axis0_apply 256 _ _ k q _ rfl

theorem K1_v71 (c : Dev nD) (k q : Fin 128) : (V2 m ρ c main_v71 : S128x128.Idx → EReal) (ix2 k q)
    = (m ((c : Thread nD τ).loc main_arg7) : S513x128.Idx → EReal) (ix2 (⟨128 + 128 + 128 + k.val, by omega⟩ : Fin 513) q) := by
  have e : (V2 m ρ c main_v71 : S128x128.Idx → EReal)
      = extractStridedSlice S128x128 ![384, 0] (m ((c : Thread nD τ).loc main_arg7) : S513x128.Idx → EReal) slices_S513x128_S128x128_384_0 := by
    rw [V2_eq m ρ c main_v71 (by decide)]
    dsimp only [hostOps0]
    after_results_simp
  rw [e]
  exact slice2_axis0_apply 384 _ _ k q _ rfl

theorem K1_v72 (c : Dev nD) (q : Fin 128) : (V2 m ρ c main_v72 : S1x128.Idx → EReal) (ix2 (0 : Fin 1) q)
    = (m ((c : Thread nD τ).loc main_arg7) : S513x128.Idx → EReal) (ix2 (⟨128 + 128 + 128 + 128, by omega⟩ : Fin 513) q) := by
  have e : (V2 m ρ c main_v72 : S1x128.Idx → EReal)
      = extractStridedSlice S1x128 ![512, 0] (m ((c : Thread nD τ).loc main_arg7) : S513x128.Idx → EReal) slices_S513x128_S1x128_512_0 := by
    rw [V2_eq m ρ c main_v72 (by decide)]
    dsimp only [hostOps0]
    after_results_simp
  rw [e]
  exact slice2_axis0_apply 512 _ _ (0 : Fin 1) q _ rfl

theorem K1_v77 (c : Dev nD) (q : Fin 128) : (V2 m ρ c main_v77 : S1x128.Idx → EReal) (ix2 (0 : Fin 1) q)
    = (m ((c : Thread nD τ).loc main_arg8) : S128.Idx → EReal) (ix1 q) := by
  have e : (V2 m ρ c main_v77 : S1x128.Idx → EReal)
      = shapeCast S1x128 (m ((c : Thread nD τ).loc main_arg8) : S128.Idx → EReal) shapeCasts_S128_S1x128 := by
    rw [V2_eq m ρ c main_v77 (by decide)]
    dsimp only [hostOps0]
    after_results_simp
    rfl
  rw [e]
  exact shapeCast_a_1a_apply _ _ (0 : Fin 1) q

end Cert.KernelIdeal.Hand

end
-- ==== Proof.HostK2.lean ====
/-
  What the node kernel is entered with. Neither kernel before it writes an argument or a weight block, so its node
  array is the argument, its three weight blocks are rows `0 … 127`, `128 … 255`, `256 … 383` of the node weight
  matrix and its bias row is the bias vector (read off the host operations before the first kernel); its two aggregate
  arrays are the second stretch of host operations applied to the two kernels' result arrays: the accumulating
  scatter, into zeros, of the messages at the middle column of each index array — the reference's scatters, once the
  messages are the reference's.
-/
import proofs.«164372_j55482387530475_2_alg».proof.Proof.FrameKI
import proofs.«164372_j55482387530475_2_alg».proof.Proof.Gen.ReferenceIdeal.Read
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- A buffer neither message kernel writes and the second stretch of host operations does not write is, at the node
    kernel's entry, what the first stretch of host operations left. -/
theorem W3_eq (c : Dev nD) (b : Ref sig .tc) (h1 : ∀ w, Pipeline.arrRef spec1 w ≠ b) (h0 : ∀ w, Pipeline.arrRef spec0 w ≠ b) :
    W3 m ρ c (Proc.devRef .tc b) = StableHlo.after hostOps0 (W0 m ρ c) (Proc.devRef .tc b) :=
  (W3_of_ne m ρ c b h1).trans (W2_of_ne m ρ c b h0)

theorem W3_arg1 (c : Dev nD) : W3 m ρ c (Proc.devRef .tc main_arg1) = m ((c : Thread nD τ).loc main_arg1) := by
  rw [W3_eq m ρ c main_arg1 (by decide) (by decide)]
  dsimp only [hostOps0]
  after_results_simp

theorem W3_arg3 (c : Dev nD) : W3 m ρ c (Proc.devRef .tc main_arg3) = m ((c : Thread nD τ).loc main_arg3) := by
  rw [W3_eq m ρ c main_arg3 (by decide) (by decide)]
  dsimp only [hostOps0]
  after_results_simp

theorem K2_arg0 (c : Dev nD) : V4 m ρ c main_arg0 = m ((c : Thread nD τ).loc main_arg0) := by
  show StableHlo.after hostOps2 (W3 m ρ c) (Proc.devRef .tc main_arg0) = _
  dsimp only [hostOps2]
  after_results
  rw [W3_eq m ρ c main_arg0 (by decide) (by decide)]
  dsimp only [hostOps0]
  after_results_simp

theorem K2_v73 (c : Dev nD) (k q : Fin 128) : (V4 m ρ c main_v73 : S128x128.Idx → EReal) (ix2 k q)
    = (m ((c : Thread nD τ).loc main_arg9) : S384x128.Idx → EReal) (ix2 (⟨k.val, by omega⟩ : Fin 384) q) := by
  have e : (V4 m ρ c main_v73 : S128x128.Idx → EReal)
      = extractStridedSlice S128x128 ![0, 0] (m ((c : Thread nD τ).loc main_arg9) : S384x128.Idx → EReal) slices_S384x128_S128x128_0_0 := by
    show StableHlo.after hostOps2 (W3 m ρ c) (Proc.devRef .tc main_v73) = _
    dsimp only [hostOps2]
    after_results
    rw [W3_eq m ρ c main_v73 (by decide) (by decide)]
    dsimp only [hostOps0]
    after_results_simp
  rw [e]
  exact slice2_axis0_apply 0 _ _ k q _ (Nat.zero_add _).symm

theorem K2_v74 (c : Dev nD) (k q : Fin 128) : (V4 m ρ c main_v74 : S128x128.Idx → EReal) (ix2 k q)
    = (m ((c : Thread nD τ).loc main_arg9) : S384x128.Idx → EReal) (ix2 (⟨128 + k.val, by omega⟩ : Fin 384) q) := by
  have e : (V4 m ρ c main_v74 : S128x128.Idx → EReal)
      = extractStridedSlice S128x128 ![128, 0] (m ((c : Thread nD τ).loc main_arg9) : S384x128.Idx → EReal) slices_S384x128_S128x128_128_0 := by
    show StableHlo.after hostOps2 (W3 m ρ c) (Proc.devRef .tc main_v74) = _
    dsimp only [hostOps2]
    after_results
    rw [W3_eq m ρ c main_v74 (by decide) (by decide)]
    dsimp only [hostOps0]
    after_results_simp
  rw [e]
  exact slice2_axis0_apply 128 _ _ k q _ rfl

theorem K2_v75 (c : Dev nD) (k q : Fin 128) : (V4 m ρ c main_v75 : S128x128.Idx → EReal) (ix2 k q)
    = (m ((c : Thread nD τ).loc main_arg9) : S384x128.Idx → EReal) (ix2 (⟨128 + 128 + k.val, by omega⟩ : Fin 384) q) := by
  have e : (V4 m ρ c main_v75 : S128x128.Idx → EReal)
      = extractStridedSlice S128x128 ![256, 0] (m ((c : Thread nD τ).loc main_arg9) : S384x128.Idx → EReal) slices_S384x128_S128x128_256_0 := by
    show StableHlo.after hostOps2 (W3 m ρ c) (Proc.devRef .tc main_v75) = _
    dsimp only [hostOps2]
    after_results
    rw [W3_eq m ρ c main_v75 (by decide) (by decide)]
    dsimp only [hostOps0]
    after_results_simp
  rw [e]
  exact slice2_axis0_apply 256 _ _ k q _ rfl

theorem K2_v78 (c : Dev nD) (q : Fin 128) : (V4 m ρ c main_v78 : S1x128.Idx → EReal) (ix2 (0 : Fin 1) q)
    = (m ((c : Thread nD τ).loc main_arg10) : S128.Idx → EReal) (ix1 q) := by
  have e : (V4 m ρ c main_v78 : S1x128.Idx → EReal)
      = shapeCast S1x128 (m ((c : Thread nD τ).loc main_arg10) : S128.Idx → EReal) shapeCasts_S128_S1x128 := by
    show StableHlo.after hostOps2 (W3 m ρ c) (Proc.devRef .tc main_v78) = _
    dsimp only [hostOps2]
    after_results
    rw [W3_eq m ρ c main_v78 (by decide) (by decide)]
    dsimp only [hostOps0]
    after_results_simp
    rfl
  rw [e]
  exact shapeCast_a_1a_apply _ _ (0 : Fin 1) q

/-- The angle aggregate: once the angle kernel's result array is the reference's angle messages, the scatter of it
    is the reference's angle aggregate. -/
theorem K2_v85 (c : Dev nD)
    (hA : (W3 m ρ c (Proc.devRef .tc main_v79) : S500000x128.Idx → EReal)
      = Cert.ReferenceIdeal.Read.val_main_v32 (F := Ideal) (m ((c : Thread nD τ).loc main_arg0)) (m ((c : Thread nD τ).loc main_arg1))
          (m ((c : Thread nD τ).loc main_arg2)) (m ((c : Thread nD τ).loc main_arg5)) (m ((c : Thread nD τ).loc main_arg6))) :
    (V4 m ρ c main_v85 : S100000x128.Idx → EReal)
      = Cert.ReferenceIdeal.Read.val_main_v37 (F := Ideal) (m ((c : Thread nD τ).loc main_arg0)) (m ((c : Thread nD τ).loc main_arg1))
          (m ((c : Thread nD τ).loc main_arg2)) (m ((c : Thread nD τ).loc main_arg5)) (m ((c : Thread nD τ).loc main_arg6)) := by
  show StableHlo.after hostOps2 (W3 m ρ c) (Proc.devRef .tc main_v85) = _
  dsimp only [hostOps2]
  after_results
  rw [hA, W3_arg1 m ρ c]
  rfl

/-- The dihedral aggregate likewise. -/
theorem K2_v90 (c : Dev nD)
    (hD : (W3 m ρ c (Proc.devRef .tc main_v80) : S500000x128.Idx → EReal)
      = Cert.ReferenceIdeal.Read.val_main_v79 (F := Ideal) (m ((c : Thread nD τ).loc main_arg0)) (m ((c : Thread nD τ).loc main_arg3))
          (m ((c : Thread nD τ).loc main_arg4)) (m ((c : Thread nD τ).loc main_arg7)) (m ((c : Thread nD τ).loc main_arg8))) :
    (V4 m ρ c main_v90 : S100000x128.Idx → EReal)
      = Cert.ReferenceIdeal.Read.val_main_v84 (F := Ideal) (m ((c : Thread nD τ).loc main_arg0)) (m ((c : Thread nD τ).loc main_arg3))
          (m ((c : Thread nD τ).loc main_arg4)) (m ((c : Thread nD τ).loc main_arg7)) (m ((c : Thread nD τ).loc main_arg8)) := by
  show StableHlo.after hostOps2 (W3 m ρ c) (Proc.devRef .tc main_v90) = _
  dsimp only [hostOps2]
  after_results
  rw [hD, W3_arg3 m ρ c]
  rfl

end Cert.KernelIdeal.Hand

end
-- ==== Proof.LibConcat.lean ====
/-
  A concatenation of `[n, ·]` arrays along their columns read at the entry `(e, c)`: the piece whose span of columns
  holds `c` (the widths of the pieces before it add up to `pre`, and `c = pre + j` with `j` inside the piece), read
  at `(e, j)`.
-/
import Idealize.ShloMosaic.Lib.Pipeline.Value
import Idealize.ShloMosaic.Lib.ValueIdx

namespace ConcatCols

open Idealize.ShloMosaic Idealize.ShloMosaic.ValueIdx

/-- Piece `k` of a column concatenation, at `(e, pre + j)`, is the piece at `(e, j)`. -/
theorem concat_cols_apply {α : Type} {n c b' : ℕ} (xs : List ((s : Shape) × (s.Idx → α)))
    (h : Shape.Concatenates (xs.map (·.1)) (⟨2, ![n, c]⟩ : Shape) (1 : Fin 2)) (e : Fin n) (kk : Fin c)
    (k : ℕ) (hk : k < xs.length) (x₁ : (⟨2, ![n, b']⟩ : Shape).Idx → α) (hxk : xs[k] = ⟨(⟨2, ![n, b']⟩ : Shape), x₁⟩)
    (pre : ℕ)
    (hpre : (((xs.take k).map (·.1)).map fun s => if h : s.rank = (⟨2, ![n, c]⟩ : Shape).rank then s.size ((1 : Fin 2).cast h.symm) else 0).sum = pre)
    (j : Fin b') (hj : pre + j.val = kk.val) :
    concatenate (⟨2, ![n, c]⟩ : Shape) (1 : Fin 2) xs h (ix2 e kk) = x₁ (ix2 e j) :=
  concatenate_apply_piece (t := (⟨2, ![n, c]⟩ : Shape)) (1 : Fin 2) xs h (ix2 e kk) k hk (⟨2, ![n, b']⟩ : Shape) x₁ hxk rfl pre hpre (ix2 e j)
    (fun b hb => by
      match b with
      | ⟨0, _⟩ => rfl
      | ⟨1, _⟩ => exact absurd rfl hb)
    (show pre + j.val = kk.val from hj)

end ConcatCols
-- ==== Proof.RefMsg.lean ====
/-
  The reference's three stages read entry by entry, at the ideal values. Its angle messages are the SiLU of ONE
  product of the 385-wide concatenated row with the whole weight matrix plus the bias; cut at the joins of the
  concatenation this is the angle message of the three gathered rows and the feature entry against the weight matrix's
  three 128-row blocks and last row (`angle_ref`). The dihedral messages likewise over 513 columns (`dihedral_ref`),
  and the node update over 384 columns, its additions re-bracketed (`update_ref`). The weight blocks, weight rows and
  bias rows enter as arrays known only by their entries, so that any spelling of the slices fits.
-/
import proofs.«164372_j55482387530475_2_alg».proof.Proof.Gen.ReferenceIdeal.Read
import proofs.«164372_j55482387530475_2_alg».proof.Proof.Arrays
import proofs.«164372_j55482387530475_2_alg».proof.Proof.LibConcat
import Idealize.ShloMosaic.PureOps.IdealRules

noncomputable section

namespace Cert.ReferenceIdeal.Hand

open Cert.ReferenceIdeal Cert.ReferenceIdeal.Read Idealize.ShloMosaic Idealize.ShloMosaic.ValueIdx Cert.Layer

/-- Float and integer arrays of the reference, at the ideal values. -/
abbrev CF (s : Shape) := (⟨s, .f32⟩ : BufTy).Contents (Elt Ideal)
abbrev CI (s : Shape) := (⟨s, .i32⟩ : BufTy).Contents (Elt Ideal)

/-- The literal 1.0 is the number one. -/
theorem one_f32 : Ideal.ofBits .f32 0x3F800000#32 = 1 := IdealRules.sign_bit.ideal_onePat .f32

/-- The reference's SiLU, spelt `y · (1 / (1 + e^(-y)))`, is SiLU. -/
theorem silu_ref (y : Ideal .f32) :
    FloatOps.mulf y (FloatOps.hostDivf (FloatOps.ofBits .f32 0x3F800000#32)
      (FloatOps.addf (FloatOps.ofBits .f32 0x3F800000#32) (FloatOps.hostUnary .exp (FloatOps.hostNegf y)))) = silu y := by
  show y * Ideal.div (Ideal.ofBits .f32 0x3F800000#32) (Ideal.ofBits .f32 0x3F800000#32 + Ideal.exp (-y)) = silu y
  rw [one_f32]
  rfl

/-! ## The angle messages -/

theorem lidx28 (e : Fin 500000) (q : Fin 128) (k : Fin 385) : lidx_main_v28 (ix2 e q) k = ix2 e k :=
  funext fun a => Fin.ext (by match a with | ⟨0, _⟩ => rfl | ⟨1, _⟩ => rfl)
theorem ridx28 (e : Fin 500000) (q : Fin 128) (k : Fin 385) : ridx_main_v28 (ix2 e q) k = ix2 k q :=
  funext fun a => Fin.ext (by match a with | ⟨0, _⟩ => rfl | ⟨1, _⟩ => rfl)
theorem idx2930 (e : Fin 500000) (q : Fin 128) : idx_main_v29 (idx_main_v30 (ix2 e q)) = ix1 q :=
  funext fun a => Fin.ext (by match a with | ⟨0, _⟩ => rfl)

theorem angle_ref (x0 : CF S100000x128) (x1 : CI S500000x3) (x2 : CF S500000x1) (x5 : CF S385x128) (x6 : CF S128)
    (w0 w1 w2 : Arr 128 128) (ws b : Arr 1 128)
    (hw0 : ∀ k q : Fin 128, w0 (ix2 k q) = x5 (ix2 (⟨k.val, by omega⟩ : Fin 385) q))
    (hw1 : ∀ k q : Fin 128, w1 (ix2 k q) = x5 (ix2 (⟨128 + k.val, by omega⟩ : Fin 385) q))
    (hw2 : ∀ k q : Fin 128, w2 (ix2 k q) = x5 (ix2 (⟨128 + 128 + k.val, by omega⟩ : Fin 385) q))
    (hws : ∀ q : Fin 128, ws (ix2 (0 : Fin 1) q) = x5 (ix2 (⟨128 + 128 + 128, by omega⟩ : Fin 385) q))
    (hb : ∀ q : Fin 128, b (ix2 (0 : Fin 1) q) = x6 (ix1 q)) :
    val_main_v32 (F := Ideal) x0 x1 x2 x5 x6
      = angleArr (val_main_v8 (F := Ideal) x0 x1) (val_main_v17 (F := Ideal) x0 x1) (val_main_v26 (F := Ideal) x0 x1) x2 w0 w1 w2 ws b := by
  funext i
  obtain ⟨e, q, rfl⟩ : ∃ (e : Fin 500000) (q : Fin 128), i = ix2 e q := ⟨i 0, i 1, eq_ix2 i⟩
  rw [angleArr_ix2, val_main_v32_apply, val_main_call0_v5_apply, val_main_call0_v4_apply, val_main_call0_cst_0_apply,
    val_main_call0_v3_apply, val_main_call0_v2_apply, val_main_call0_cst_apply, val_main_call0_v1_apply,
    val_main_call0_v0_apply, silu_ref, val_main_v31_apply, val_main_v28_apply, val_main_v30_apply, val_main_v29_apply]
  simp only [lidx28, ridx28, idx2930]
  refine (angle_of_concat (fun k => val_main_v27 (F := Ideal) x0 x1 x2 (ix2 e k)) (fun k => x5 (ix2 k q)) (x6 (ix1 q))).trans ?_
  have c0 : ∀ k : Fin 128, val_main_v27 (F := Ideal) x0 x1 x2 (ix2 e (⟨k.val, by omega⟩ : Fin 385)) = val_main_v8 (F := Ideal) x0 x1 (ix2 e k) :=
    fun k => ConcatCols.concat_cols_apply _ _ e _ 0 (by simp) _ rfl 0 rfl k (Nat.zero_add _)
  have c1 : ∀ k : Fin 128, val_main_v27 (F := Ideal) x0 x1 x2 (ix2 e (⟨128 + k.val, by omega⟩ : Fin 385)) = val_main_v17 (F := Ideal) x0 x1 (ix2 e k) :=
    fun k => ConcatCols.concat_cols_apply _ _ e _ 1 (by simp) _ rfl 128 rfl k rfl
  have c2 : ∀ k : Fin 128, val_main_v27 (F := Ideal) x0 x1 x2 (ix2 e (⟨128 + 128 + k.val, by omega⟩ : Fin 385)) = val_main_v26 (F := Ideal) x0 x1 (ix2 e k) :=
    fun k => ConcatCols.concat_cols_apply _ _ e _ 2 (by simp) _ rfl (128 + 128) rfl k rfl
  have c3 : val_main_v27 (F := Ideal) x0 x1 x2 (ix2 e (⟨128 + 128 + 128, by omega⟩ : Fin 385)) = x2 (ix2 e (0 : Fin 1)) :=
    ConcatCols.concat_cols_apply _ _ e _ 3 (by simp) _ rfl (128 + 128 + 128) rfl (0 : Fin 1) rfl
  simp only [c0, c1, c2, c3, hw0, hw1, hw2, hws, hb]

/-! ## The dihedral messages -/

theorem lidx75 (e : Fin 500000) (q : Fin 128) (k : Fin 513) : lidx_main_v75 (ix2 e q) k = ix2 e k :=
  funext fun a => Fin.ext (by match a with | ⟨0, _⟩ => rfl | ⟨1, _⟩ => rfl)
theorem ridx75 (e : Fin 500000) (q : Fin 128) (k : Fin 513) : ridx_main_v75 (ix2 e q) k = ix2 k q :=
  funext fun a => Fin.ext (by match a with | ⟨0, _⟩ => rfl | ⟨1, _⟩ => rfl)
theorem idx7677 (e : Fin 500000) (q : Fin 128) : idx_main_v76 (idx_main_v77 (ix2 e q)) = ix1 q :=
  funext fun a => Fin.ext (by match a with | ⟨0, _⟩ => rfl)

theorem dihedral_ref (x0 : CF S100000x128) (x3 : CI S500000x4) (x4 : CF S500000x1) (x7 : CF S513x128) (x8 : CF S128)
    (w0 w1 w2 w3 : Arr 128 128) (ws b : Arr 1 128)
    (hw0 : ∀ k q : Fin 128, w0 (ix2 k q) = x7 (ix2 (⟨k.val, by omega⟩ : Fin 513) q))
    (hw1 : ∀ k q : Fin 128, w1 (ix2 k q) = x7 (ix2 (⟨128 + k.val, by omega⟩ : Fin 513) q))
    (hw2 : ∀ k q : Fin 128, w2 (ix2 k q) = x7 (ix2 (⟨128 + 128 + k.val, by omega⟩ : Fin 513) q))
    (hw3 : ∀ k q : Fin 128, w3 (ix2 k q) = x7 (ix2 (⟨128 + 128 + 128 + k.val, by omega⟩ : Fin 513) q))
    (hws : ∀ q : Fin 128, ws (ix2 (0 : Fin 1) q) = x7 (ix2 (⟨128 + 128 + 128 + 128, by omega⟩ : Fin 513) q))
    (hb : ∀ q : Fin 128, b (ix2 (0 : Fin 1) q) = x8 (ix1 q)) :
    val_main_v79 (F := Ideal) x0 x3 x4 x7 x8
      = dihedralArr (val_main_v46 (F := Ideal) x0 x3) (val_main_v55 (F := Ideal) x0 x3) (val_main_v64 (F := Ideal) x0 x3)
          (val_main_v73 (F := Ideal) x0 x3) x4 w0 w1 w2 w3 ws b := by
  funext i
  obtain ⟨e, q, rfl⟩ : ∃ (e : Fin 500000) (q : Fin 128), i = ix2 e q := ⟨i 0, i 1, eq_ix2 i⟩
  rw [dihedralArr_ix2, val_main_v79_apply, val_main_call1_v5_apply, val_main_call1_v4_apply, val_main_call1_cst_0_apply,
    val_main_call1_v3_apply, val_main_call1_v2_apply, val_main_call1_cst_apply, val_main_call1_v1_apply,
    val_main_call1_v0_apply, silu_ref, val_main_v78_apply, val_main_v75_apply, val_main_v77_apply, val_main_v76_apply]
  simp only [lidx75, ridx75, idx7677]
  refine (dihedral_of_concat (fun k => val_main_v74 (F := Ideal) x0 x3 x4 (ix2 e k)) (fun k => x7 (ix2 k q)) (x8 (ix1 q))).trans ?_
  have c0 : ∀ k : Fin 128, val_main_v74 (F := Ideal) x0 x3 x4 (ix2 e (⟨k.val, by omega⟩ : Fin 513)) = val_main_v46 (F := Ideal) x0 x3 (ix2 e k) :=
    fun k => ConcatCols.concat_cols_apply _ _ e _ 0 (by simp) _ rfl 0 rfl k (Nat.zero_add _)
  have c1 : ∀ k : Fin 128, val_main_v74 (F := Ideal) x0 x3 x4 (ix2 e (⟨128 + k.val, by omega⟩ : Fin 513)) = val_main_v55 (F := Ideal) x0 x3 (ix2 e k) :=
    fun k => ConcatCols.concat_cols_apply _ _ e _ 1 (by simp) _ rfl 128 rfl k rfl
  have c2 : ∀ k : Fin 128, val_main_v74 (F := Ideal) x0 x3 x4 (ix2 e (⟨128 + 128 + k.val, by omega⟩ : Fin 513)) = val_main_v64 (F := Ideal) x0 x3 (ix2 e k) :=
    fun k => ConcatCols.concat_cols_apply _ _ e _ 2 (by simp) _ rfl (128 + 128) rfl k rfl
  have c3 : ∀ k : Fin 128, val_main_v74 (F := Ideal) x0 x3 x4 (ix2 e (⟨128 + 128 + 128 + k.val, by omega⟩ : Fin 513)) = val_main_v73 (F := Ideal) x0 x3 (ix2 e k) :=
    fun k => ConcatCols.concat_cols_apply _ _ e _ 3 (by simp) _ rfl (128 + 128 + 128) rfl k rfl
  have c4 : val_main_v74 (F := Ideal) x0 x3 x4 (ix2 e (⟨128 + 128 + 128 + 128, by omega⟩ : Fin 513)) = x4 (ix2 e (0 : Fin 1)) :=
    ConcatCols.concat_cols_apply _ _ e _ 4 (by simp) _ rfl (128 + 128 + 128 + 128) rfl (0 : Fin 1) rfl
  simp only [c0, c1, c2, c3, c4, hw0, hw1, hw2, hw3, hws, hb]

/-! ## The node update -/

theorem lidx86 (e : Fin 100000) (q : Fin 128) (k : Fin 384) : lidx_main_v86 (ix2 e q) k = ix2 e k :=
  funext fun a => Fin.ext (by match a with | ⟨0, _⟩ => rfl | ⟨1, _⟩ => rfl)
theorem ridx86 (e : Fin 100000) (q : Fin 128) (k : Fin 384) : ridx_main_v86 (ix2 e q) k = ix2 k q :=
  funext fun a => Fin.ext (by match a with | ⟨0, _⟩ => rfl | ⟨1, _⟩ => rfl)
theorem idx8889 (e : Fin 100000) (q : Fin 128) : idx_main_v88 (idx_main_v89 (ix2 e q)) = ix1 q :=
  funext fun a => Fin.ext (by match a with | ⟨0, _⟩ => rfl)

theorem update_ref (x0 : CF S100000x128) (x1 : CI S500000x3) (x2 : CF S500000x1) (x3 : CI S500000x4) (x4 : CF S500000x1)
    (x5 : CF S385x128) (x6 : CF S128) (x7 : CF S513x128) (x8 : CF S128) (x9 : CF S384x128) (x10 : CF S128)
    (w0 w1 w2 : Arr 128 128) (b : Arr 1 128)
    (hw0 : ∀ k q : Fin 128, w0 (ix2 k q) = x9 (ix2 (⟨k.val, by omega⟩ : Fin 384) q))
    (hw1 : ∀ k q : Fin 128, w1 (ix2 k q) = x9 (ix2 (⟨128 + k.val, by omega⟩ : Fin 384) q))
    (hw2 : ∀ k q : Fin 128, w2 (ix2 k q) = x9 (ix2 (⟨128 + 128 + k.val, by omega⟩ : Fin 384) q))
    (hb : ∀ q : Fin 128, b (ix2 (0 : Fin 1) q) = x10 (ix1 q)) :
    val_main_v90 (F := Ideal) x0 x1 x2 x3 x4 x5 x6 x7 x8 x9 x10
      = updateArr x0 (val_main_v37 (F := Ideal) x0 x1 x2 x5 x6) (val_main_v84 (F := Ideal) x0 x3 x4 x7 x8) w0 w1 w2 b := by
  funext i
  obtain ⟨e, q, rfl⟩ : ∃ (e : Fin 100000) (q : Fin 128), i = ix2 e q := ⟨i 0, i 1, eq_ix2 i⟩
  rw [updateArr_ix2, val_main_v90_apply, val_main_v87_apply, val_main_v86_apply, val_main_v89_apply, val_main_v88_apply]
  simp only [lidx86, ridx86, idx8889]
  refine (update_of_concat (x0 (ix2 e q)) (fun k => val_main_v85 (F := Ideal) x0 x1 x2 x3 x4 x5 x6 x7 x8 (ix2 e k)) (fun k => x9 (ix2 k q)) (x10 (ix1 q))).trans ?_
  have c0 : ∀ k : Fin 128, val_main_v85 (F := Ideal) x0 x1 x2 x3 x4 x5 x6 x7 x8 (ix2 e (⟨k.val, by omega⟩ : Fin 384)) = x0 (ix2 e k) :=
    fun k => ConcatCols.concat_cols_apply _ _ e _ 0 (by simp) _ rfl 0 rfl k (Nat.zero_add _)
  have c1 : ∀ k : Fin 128, val_main_v85 (F := Ideal) x0 x1 x2 x3 x4 x5 x6 x7 x8 (ix2 e (⟨128 + k.val, by omega⟩ : Fin 384)) = val_main_v37 (F := Ideal) x0 x1 x2 x5 x6 (ix2 e k) :=
    fun k => ConcatCols.concat_cols_apply _ _ e _ 1 (by simp) _ rfl 128 rfl k rfl
  have c2 : ∀ k : Fin 128, val_main_v85 (F := Ideal) x0 x1 x2 x3 x4 x5 x6 x7 x8 (ix2 e (⟨128 + 128 + k.val, by omega⟩ : Fin 384)) = val_main_v84 (F := Ideal) x0 x3 x4 x7 x8 (ix2 e k) :=
    fun k => ConcatCols.concat_cols_apply _ _ e _ 2 (by simp) _ rfl (128 + 128) rfl k rfl
  simp only [c0, c1, c2, hw0, hw1, hw2, hb]

end Cert.ReferenceIdeal.Hand

end
-- ==== Proof.RunOut.lean ====
/-
  The run of the whole program with its RESULT named: every weakly fair execution terminates, nothing faulting, and
  ends with the result array at the contents of the last boundary of the run's fold (what the node kernel's
  write-backs leave) and the argument arrays as launched.
-/
import proofs.«164372_j55482387530475_2_alg».proof.Proof.FrameKI

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run_out : θ_run defs (onTc (τ := τ) (main (F := F))) ⟨m, fun _ => 0, ρ⟩ (fun r => ∀ c : Dev nD,
      r.2.mem ((c.tc : Thread nD τ).loc main_v91) = W5 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v91 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Hand

end
-- ==== Proof.KernelValue.lean ====
/-
  The kernel program's result as one function of its arguments: the reference's. The angle kernel's result array is
  every angle message of the rows it is entered with (the blocks-to-array reading), those rows are the reference's
  gathered rows and the weight blocks the reference's weight matrix cut at rows 128, 256 and 384 (the host operations
  before it), and one product over the concatenated row is the block products added (the algebra): so it is the
  reference's angle messages. The dihedral kernel's likewise. The scatters of the two are then the reference's
  aggregates, and the node kernel's result, the update of every node from the node array and the two aggregates, is the
  reference's result. The run of the whole program ends with the result array at that function of the arguments.
-/
import proofs.«164372_j55482387530475_2_alg».proof.Proof.Blocks0
import proofs.«164372_j55482387530475_2_alg».proof.Proof.Blocks1
import proofs.«164372_j55482387530475_2_alg».proof.Proof.Blocks2
import proofs.«164372_j55482387530475_2_alg».proof.Proof.HostK0
import proofs.«164372_j55482387530475_2_alg».proof.Proof.HostK1
import proofs.«164372_j55482387530475_2_alg».proof.Proof.HostK2
import proofs.«164372_j55482387530475_2_alg».proof.Proof.RefMsg
import proofs.«164372_j55482387530475_2_alg».proof.Proof.RunOut

set_option maxRecDepth 16384

noncomputable section

namespace Cert.KernelIdeal.Hand

open Cert.KernelIdeal Cert.KernelIdeal.Gen Cert.KernelIdeal.GenP Idealize.ShloMosaic Idealize.ShloMosaic.TcCoe Idealize.ShloMosaic.ValueIdx Idealize.SL.Sem Cert.Layer

variable (m : (ℓ : Loc nD τ sig) → Buf (Elt Ideal) ℓ) (ρ : Dev nD → PrngReg)

/-- The angle kernel's result array, as the node kernel's host operations find it, is the reference's angle messages. -/
theorem angle_value (c : Dev nD) : (W3 m ρ c (Proc.devRef .tc main_v79) : S500000x128.Idx → EReal)
    = Cert.ReferenceIdeal.Read.val_main_v32 (F := Ideal) (m ((c : Thread nD τ).loc main_arg0)) (m ((c : Thread nD τ).loc main_arg1))
        (m ((c : Thread nD τ).loc main_arg2)) (m ((c : Thread nD τ).loc main_arg5)) (m ((c : Thread nD τ).loc main_arg6)) := by
  rw [W3_of_ne m ρ c main_v79 (by decide)]
  refine (W2_arr m ρ c 9).trans ?_
  rw [final0 (V1 m ρ) c]
  unfold angleOf
  rw [K0_v9 m ρ c, K0_v18 m ρ c, K0_v27 m ρ c, K0_arg2 m ρ c]
  exact (Cert.ReferenceIdeal.Hand.angle_ref _ _ _ _ _ _ _ _ _ _ (K0_v64 m ρ c) (K0_v65 m ρ c) (K0_v66 m ρ c) (K0_v67 m ρ c)
    (K0_v76 m ρ c)).symm

/-- The dihedral kernel's result array is the reference's dihedral messages. -/
theorem dihedral_value (c : Dev nD) : (W3 m ρ c (Proc.devRef .tc main_v80) : S500000x128.Idx → EReal)
    = Cert.ReferenceIdeal.Read.val_main_v79 (F := Ideal) (m ((c : Thread nD τ).loc main_arg0)) (m ((c : Thread nD τ).loc main_arg3))
        (m ((c : Thread nD τ).loc main_arg4)) (m ((c : Thread nD τ).loc main_arg7)) (m ((c : Thread nD τ).loc main_arg8)) := by
  refine (W3_arr m ρ c 11).trans ?_
  rw [final1 (V2 m ρ) c]
  unfold dihedralOf
  rw [K1_v36 m ρ c, K1_v45 m ρ c, K1_v54 m ρ c, K1_v63 m ρ c, K1_arg4 m ρ c]
  exact (Cert.ReferenceIdeal.Hand.dihedral_ref _ _ _ _ _ _ _ _ _ _ _ (K1_v68 m ρ c) (K1_v69 m ρ c) (K1_v70 m ρ c) (K1_v71 m ρ c)
    (K1_v72 m ρ c) (K1_v77 m ρ c)).symm

/-- The program's result array at the end of the run's fold is the reference's result. -/
theorem kernel_value (c : Dev nD) : (W5 m ρ c (Proc.devRef .tc main_v91) : S100000x128.Idx → EReal)
    = Cert.ReferenceIdeal.Read.val_main_v90 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10)) := by
  refine (W5_arr m ρ c 7).trans ?_
  rw [final2 (V4 m ρ) c]
  unfold updateOf
  rw [K2_arg0 m ρ c, K2_v85 m ρ c (angle_value m ρ c), K2_v90 m ρ c (dihedral_value m ρ c)]
  exact (Cert.ReferenceIdeal.Hand.update_ref _ _ _ _ _ _ _ _ _ _ _ _ _ _ _ (K2_v73 m ρ c) (K2_v74 m ρ c) (K2_v75 m ρ c)
    (K2_v78 m ρ c)).symm

/-- The run: every weakly fair execution ends with the result array at the reference's function of the arguments and the
    arguments unchanged. -/
theorem run_value : θ_run defs (onTc (τ := τ) (main (F := Ideal))) ⟨m, fun _ => 0, ρ⟩ (fun r => ∀ c : Dev nD,
      r.2.mem ((c.tc : Thread nD τ).loc main_v91)
        = Cert.ReferenceIdeal.Read.val_main_v90 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (kernel_value m ρ c), (h c).2⟩) (run_out (F := Ideal) m ρ)

end Cert.KernelIdeal.Hand

end
-- ==== Proof.lean ====
/-
  A graph layer: angle messages and dihedral messages (each the SiLU of a linear map of gathered node rows, a scalar
  feature and a bias), summed onto their centre nodes, then a residual linear update of every node from its own row and
  its two aggregates. The kernel program computes each linear map as one 128-wide product per block of the weight
  matrix, added in order (three Pallas kernels, tiled over edges and over nodes, with the gathers and the scatters on
  the host); the reference as ONE product over the concatenated row. On the extended reals the two are the same
  function of the arguments: a finite sum cut into consecutive blocks, and additions re-bracketed — both hold for all
  extended reals, so the finiteness of the inputs is not used. The two kernel programs' frames are the generated frame proofs (taken from copies in which one step is given a
  larger budget), the reference's its generated run with the result dropped; the idealization rewrote nothing.
-/
import proofs.«164372_j55482387530475_2_alg».proof.Defs
import proofs.«164372_j55482387530475_2_alg».proof.Proof.Gen.Kernel
import proofs.«164372_j55482387530475_2_alg».proof.Proof.Gen.Kernel.Skeleton
import proofs.«164372_j55482387530475_2_alg».proof.Proof.Gen.Kernel.Launch
import proofs.«164372_j55482387530475_2_alg».proof.Proof.Gen.Kernel.Points
import proofs.«164372_j55482387530475_2_alg».proof.Proof.FrameK
import proofs.«164372_j55482387530475_2_alg».proof.Proof.Gen.KernelIdeal
import proofs.«164372_j55482387530475_2_alg».proof.Proof.Gen.KernelIdeal.Skeleton
import proofs.«164372_j55482387530475_2_alg».proof.Proof.Gen.KernelIdeal.Launch
import proofs.«164372_j55482387530475_2_alg».proof.Proof.Gen.KernelIdeal.Points
import proofs.«164372_j55482387530475_2_alg».proof.Proof.FrameKI
import proofs.«164372_j55482387530475_2_alg».proof.Proof.Gen.ReferenceIdeal
import proofs.«164372_j55482387530475_2_alg».proof.Proof.Gen.ReferenceIdeal.Run
import proofs.«164372_j55482387530475_2_alg».proof.Proof.Gen.ReferenceIdeal.Read
import proofs.«164372_j55482387530475_2_alg».proof.Proof.Gen.Pre_finite_inputs
import proofs.«164372_j55482387530475_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the result array at the reference's
    composed function of the arguments: the kernel program by its value (`run_value`), the reference by its run. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq]
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
